-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512 : Shape := ⟨2, ![512, 512]⟩
abbrev S512x512x3 : Shape := ⟨3, ![512, 512, 3]⟩
abbrev S512 : Shape := ⟨1, ![512]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel
  bcast_S_S512x512x3 : S_.BroadcastsInDim S512x512x3 (![] : Fin 0 → Fin S512x512x3.rank)
  reducesTo_S512x512x3_S_d0_1_2 : S512x512x3.ReducesTo [0, 1, 2] S_
  bcast_S_S512 : S_.BroadcastsInDim S512 (![] : Fin 0 → Fin S512.rank)
  reducesTo_S512_S_d0 : S512.ReducesTo [0] S_

variable [Facts]

def fn_part1 {F : FTy → Type} [FloatOps F] (main_arg0 : FVec F S512x512 .f32) (main_arg4 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_cst_8 : FVec F S_ .f32 := constant S_ .f32 0x00000000#32
  let main_v24 : FVec F S512x512 .f32 := broadcastInDim S512x512 ![] bcast_S_S512x512 main_cst_8
  let main_v25 : IVec S512x512 1 := cmpf .ogt main_arg0 main_v24
  let main_c_9 : IVec S_ 1 := constantI S_ 1 1#1
  let main_v26 : IVec S_ 1 := (fun x v => Host.reduce IntOp.andi x v reducesTo_S512x512_S_d0_1 h_S_) main_v25 main_c_9
  let main_v27 : IVec S_ 1 := andi main_v23 main_v26
  main_v27

def fn {F : FTy → Type} [FloatOps F] (main_arg0 : FVec F S512x512 .f32) (main_arg1 : FVec F S512x512 .f32) (main_arg2 : FVec F S512x512x3 .f32) (main_arg3 : FVec F S512 .f32) (main_arg4 : FVec F S512 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512x512x3 .f32 := Host.absf main_arg2
  let main_cst_2 : FVec F S_ .f32 := constant S_ .f32 0x7F800000#32
  let main_v10 : FVec F S512x512x3 .f32 := broadcastInDim S512x512x3 ![] bcast_S_S512x512x3 main_cst_2
  let main_v11 : IVec S512x512x3 1 := cmpf .olt main_v9 main_v10
  let main_c_3 : IVec S_ 1 := constantI S_ 1 1#1
  let main_v12 : IVec S_ 1 := (fun x v => Host.reduce IntOp.andi x v reducesTo_S512x512x3_S_d0_1_2 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg0 main_arg4 main_v13 main_v16
-- ==== Kernel.lean ====
abbrev S512x512 : Shape := ⟨2, ![512, 512]⟩
abbrev S512x512x3 : Shape := ⟨3, ![512, 512, 3]⟩
abbrev S512 : Shape := ⟨1, ![512]⟩
abbrev S_ : Shape := ⟨0, ![]⟩
abbrev S512x512x1 : Shape := ⟨3, ![512, 512, 1]⟩
abbrev S1x512 : Shape := ⟨2, ![1, 512]⟩
abbrev S128x512 : Shape := ⟨2, ![128, 512]⟩
abbrev S512x128 : Shape := ⟨2, ![512, 128]⟩
abbrev S1x128 : Shape := ⟨2, ![1, 128]⟩
abbrev S128x128 : Shape := ⟨2, ![128, 128]⟩
abbrev S128x1x128 : Shape := ⟨3, ![128, 1, 128]⟩
abbrev S1x128x128 : Shape := ⟨3, ![1, 128, 128]⟩
abbrev S128x128x128 : Shape := ⟨3, ![128, 128, 128]⟩

abbrev nBuf : Space → Nat
  | .hbm => 35
  | .vmem => 16
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .hbm, ⟨2, _⟩ => ⟨S512x512x3, .f32⟩
  | .hbm, ⟨3, _⟩ => ⟨S512, .f32⟩
  | .hbm, ⟨4, _⟩ => ⟨S512, .f32⟩
  | .hbm, ⟨5, _⟩ => ⟨S512x512, .f32⟩
  | .hbm, ⟨6, _⟩ => ⟨S512x512, .f32⟩
  | .hbm, ⟨7, _⟩ => ⟨S_, .f32⟩
  | .hbm, ⟨8, _⟩ => ⟨S512x512, .f32⟩
  | .hbm, ⟨9, _⟩ => ⟨S512x512, .f32⟩
  | .hbm, ⟨10, _⟩ => ⟨S_, .f32⟩
  | .hbm, ⟨11, _⟩ => ⟨S512x512, .f32⟩
  | .hbm, ⟨12, _⟩ => ⟨S512x512, .f32⟩
  | .hbm, ⟨13, _⟩ => ⟨S_, .f32⟩
  | .hbm, ⟨14, _⟩ => ⟨S512x512, .f32⟩
  | .hbm, ⟨15, _⟩ => ⟨S512x512, .i1⟩
  | .hbm, ⟨16, _⟩ => ⟨S512x512, .f32⟩
  | .hbm, ⟨17, _⟩ => ⟨S_, .f32⟩
  | .hbm, ⟨18, _⟩ => ⟨S512x512, .f32⟩
  | .hbm, ⟨19, _⟩ => ⟨S512x512, .i1⟩
  | .hbm, ⟨20, _⟩ => ⟨S512x512, .f32⟩
  | .hbm, ⟨21, _⟩ => ⟨S512x512x1, .f32⟩
  | .hbm, ⟨22, _⟩ => ⟨S512x512, .f32⟩
  | .hbm, ⟨23, _⟩ => ⟨S512x512x1, .f32⟩
  | .hbm, ⟨24, _⟩ => ⟨S512x512, .f32⟩
  | .hbm, ⟨25, _⟩ => ⟨S512x512x1, .f32⟩
  | .hbm, ⟨26, _⟩ => ⟨S512x512, .f32⟩
  | .hbm, ⟨27, _⟩ => ⟨S512x512, .f32⟩
  | .hbm, ⟨28, _⟩ => ⟨S512x512, .f32⟩
  | .hbm, ⟨29, _⟩ => ⟨S512x512, .bf16⟩
  | .hbm, ⟨30, _⟩ => ⟨S512x512, .f32⟩
  | .hbm, ⟨31, _⟩ => ⟨S512x512, .f32⟩
  | .hbm, ⟨32, _⟩ => ⟨S512x512, .bf16⟩
  | .hbm, ⟨33, _⟩ => ⟨S1x512, .f32⟩
  | .hbm, ⟨34, _⟩ => ⟨S512x512, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S512x128, .bf16⟩
  | .local _ .vmem, ⟨9, _⟩ => ⟨S512x128, .bf16⟩
  | .local _ .vmem, ⟨10, _⟩ => ⟨S512x128, .bf16⟩
  | .local _ .vmem, ⟨11, _⟩ => ⟨S512x128, .bf16⟩
  | .local _ .vmem, ⟨12, _⟩ => ⟨S1x128, .f32⟩
  | .local _ .vmem, ⟨13, _⟩ => ⟨S1x128, .f32⟩
  | .local _ .vmem, ⟨14, _⟩ => ⟨S128x128, .f32⟩
  | .local _ .vmem, ⟨15, _⟩ => ⟨S128x128, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 4], ![false, false]⟩

@[reducible] def k0_t1_loop : Scf.Loop 32 :=
  let c0_i32 : BitVec 32 := 0#32
  let c4_i32 : BitVec 32 := 4#32
  let v1 : BitVec 32 := Scalar.addi c0_i32 c4_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32 : BitVec 32 := 128#32
  let v20 : BitVec 32 := Scalar.muli arg10 c128_i32
  v20
def k0_off1 (k0_t1 : Fin k0_t1_loop.trips) : Fin 2 → Nat :=
  let c0_12 : Index := 0#32
  let c0_i32 : BitVec 32 := 0#32
  let c1_i32 : BitVec 32 := 1#32
  let arg10 : BitVec 32 := Scf.iv c0_i32 c1_i32 k0_t1
  let c128_i32 : BitVec 32 := 128#32
  let v20 : BitVec 32 := Scalar.muli arg10 c128_i32
  let v21 : BitVec 32 := v20
  let v22 : Index := Scalar.indexCast v21
  ![0, v22.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  bcast_S_S512x512 : S_.BroadcastsInDim S512x512 (![] : Fin 0 → Fin S512x512.rank)
  slices_S512x512x3_S512x512x1_0_0_0 : S512x512x3.Slices ![0, 0, 0] S512x512x1
  shapeCasts_S512x512x1_S512x512 : S512x512x1.ShapeCasts S512x512
  slices_S512x512x3_S512x512x1_0_0_1 : S512x512x3.Slices ![0, 0, 1] S512x512x1
  slices_S512x512x3_S512x512x1_0_0_2 : S512x512x3.Slices ![0, 0, 2] S512x512x1
  transposes_S512x512_S512x512_1_0 : S512x512.Transposes [1, 0] S512x512
  bitsLt_bf16_f32 : FTy.bits .bf16 < FTy.bits .f32
  shapeCasts_S512_S1x512 : S512.ShapeCasts S1x512
  h_S128x128 : 0 < S128x128.numel
  shapeCasts_S128x128_S128x128 : S128x128.ShapeCasts S128x128
  shapeCasts_S128x128_S128x1x128 : S128x128.ShapeCasts S128x1x128
  shapeCasts_S128x128_S1x128x128 : S128x128.ShapeCasts S1x128x128
  broadcasts_S1x128x128_S128x128x128 : S1x128x128.Broadcasts S128x128x128
  broadcasts_S128x1x128_S128x128x128 : S128x1x128.Broadcasts S128x128x128
  reduces_S128x128x128_S128x128 : S128x128x128.Reduces [2] S128x128
  inb_S128x512_S128x512_0_0 : ∀ a, (![0, 0] : Fin 2 → Nat) a + S128x512.size a ≤ S128x512.size a
  h_S128x512 : 0 < S128x512.numel
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S128x128 : S1x128.Broadcasts S128x128
  inb_S128x128_S128x128_0_0 : ∀ a, (![0, 0] : Fin 2 → Nat) a + S128x128.size a ≤ S128x128.size a
  dot_S128x512_S512x128_S128x128_1_0_0_1_n_n_wf : DotDims.WF S128x512 S512x128 S128x128 [1] [0] [0] [1] [] []
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S128x128.size a ≤ S128x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S512x512.size a
  hwx0_0 : ∀ i : grid0.Coords, EltTy.bits .f32 = 32 ∨ (Rect.block (s := S512x512) S128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S512x512.size a
  hwx0_1 : ∀ i : grid0.Coords, EltTy.bits .f32 = 32 ∨ (Rect.block (s := S512x512) S128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S512x512.size a
  hwx0_2 : ∀ i : grid0.Coords, EltTy.bits .f32 = 32 ∨ (Rect.block (s := S512x512) S128x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S512x512.size a
  hwx0_3 : ∀ i : grid0.Coords, EltTy.bits .f32 = 32 ∨ (Rect.block (s := S512x512) S128x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x128.size a ≤ S512x512.size a
  hwx0_4 : ∀ i : grid0.Coords, EltTy.bits .bf16 = 32 ∨ (Rect.block (s := S512x512) S512x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S512x512.size a
  hwx0_5 : ∀ i : grid0.Coords, EltTy.bits .bf16 = 32 ∨ (Rect.block (s := S512x512) S512x128.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x512.size a
  hwx0_6 : ∀ i : grid0.Coords, EltTy.bits .f32 = 32 ∨ (Rect.block (s := S1x512) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S512x512.size a
  hwx0_7 : ∀ i : grid0.Coords, EltTy.bits .f32 = 32 ∨ (Rect.block (s := S512x512) S128x128.size (cc0_transform_7 i) (hinb0_7 i)).WholeWords (EltTy.packing .f32)

variable [Facts₀]

def dot_S128x512_S512x128_S128x128_1_0_0_1_n_n : DotDims S128x512 S512x128 S128x128 where
  lhsContracting := [1]
  rhsContracting := [0]
  lhsNonContracting := [0]
  rhsNonContracting := [1]
  lhsBatch := []
  rhsBatch := []
  wf := dot_S128x512_S512x128_S128x128_1_0_0_1_n_n_wf

abbrev win0_0 : Pipeline.Window sig grid0 :=
  Pipeline.Window.ofSpec (Memref.whole main_arg0) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S128x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v20) S512x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v23) S512x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v24) S1x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v25) S128x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S512x512 : Shape := ⟨2, ![512, 512]⟩
abbrev S512x512x3 : Shape := ⟨3, ![512, 512, 3]⟩
abbrev S512 : Shape := ⟨1, ![512]⟩
abbrev S512x1x512 : Shape := ⟨3, ![512, 1, 512]⟩
abbrev S_ : Shape := ⟨0, ![]⟩
abbrev S512x512x1 : Shape := ⟨3, ![512, 512, 1]⟩
abbrev S1x512x512 : Shape := ⟨3, ![1, 512, 512]⟩
abbrev S512x512x512 : Shape := ⟨3, ![512, 512, 512]⟩
abbrev S1x512 : Shape := ⟨2, ![1, 512]⟩

abbrev nBuf : Space → Nat
  | .hbm => 52
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .hbm, ⟨2, _⟩ => ⟨S512x512x3, .f32⟩
  | .hbm, ⟨3, _⟩ => ⟨S512, .f32⟩
  | .hbm, ⟨4, _⟩ => ⟨S512, .f32⟩
  | .hbm, ⟨5, _⟩ => ⟨S512x1x512, .f32⟩
  | .hbm, ⟨6, _⟩ => ⟨S512x512, .f32⟩
  | .hbm, ⟨7, _⟩ => ⟨S_, .f32⟩
  | .hbm, ⟨8, _⟩ => ⟨S512x512, .f32⟩
  | .hbm, ⟨9, _⟩ => ⟨S512x512, .f32⟩
  | .hbm, ⟨10, _⟩ => ⟨S_, .f32⟩
  | .hbm, ⟨11, _⟩ => ⟨S512x512, .f32⟩
  | .hbm, ⟨12, _⟩ => ⟨S512x512, .f32⟩
  | .hbm, ⟨13, _⟩ => ⟨S_, .f32⟩
  | .hbm, ⟨14, _⟩ => ⟨S512x512, .f32⟩
  | .hbm, ⟨15, _⟩ => ⟨S512x512, .i1⟩
  | .hbm, ⟨16, _⟩ => ⟨S512x512, .f32⟩
  | .hbm, ⟨17, _⟩ => ⟨S_, .f32⟩
  | .hbm, ⟨18, _⟩ => ⟨S512x512, .f32⟩
  | .hbm, ⟨19, _⟩ => ⟨S512x512, .i1⟩
  | .hbm, ⟨20, _⟩ => ⟨S512x512, .f32⟩
  | .hbm, ⟨21, _⟩ => ⟨S512x512x1, .f32⟩
  | .hbm, ⟨22, _⟩ => ⟨S512x512, .f32⟩
  | .hbm, ⟨23, _⟩ => ⟨S1x512x512, .f32⟩
  | .hbm, ⟨24, _⟩ => ⟨S512x512x512, .f32⟩
  | .hbm, ⟨25, _⟩ => ⟨S512x512x512, .f32⟩
  | .hbm, ⟨26, _⟩ => ⟨S512x512x512, .f32⟩
  | .hbm, ⟨27, _⟩ => ⟨S1x512x512, .f32⟩
  | .hbm, ⟨28, _⟩ => ⟨S512x512x512, .f32⟩
  | .hbm, ⟨29, _⟩ => ⟨S512x512x512, .f32⟩
  | .hbm, ⟨30, _⟩ => ⟨S512x512x1, .f32⟩
  | .hbm, ⟨31, _⟩ => ⟨S512x512, .f32⟩
  | .hbm, ⟨32, _⟩ => ⟨S512x512, .f32⟩
  | .hbm, ⟨33, _⟩ => ⟨S1x512x512, .f32⟩
  | .hbm, ⟨34, _⟩ => ⟨S512x512x512, .f32⟩
  | .hbm, ⟨35, _⟩ => ⟨S512x512x512, .f32⟩
  | .hbm, ⟨36, _⟩ => ⟨S512x512x512, .f32⟩
  | .hbm, ⟨37, _⟩ => ⟨S512x512x512, .f32⟩
  | .hbm, ⟨38, _⟩ => ⟨S512x512x1, .f32⟩
  | .hbm, ⟨39, _⟩ => ⟨S512x512, .f32⟩
  | .hbm, ⟨40, _⟩ => ⟨S512x512, .f32⟩
  | .hbm, ⟨41, _⟩ => ⟨S512x1x512, .f32⟩
  | .hbm, ⟨42, _⟩ => ⟨S1x512x512, .f32⟩
  | .hbm, ⟨43, _⟩ => ⟨S512x512x512, .f32⟩
  | .hbm, ⟨44, _⟩ => ⟨S512x512x512, .f32⟩
  | .hbm, ⟨45, _⟩ => ⟨S512x512x512, .f32⟩
  | .hbm, ⟨46, _⟩ => ⟨S512x512x512, .f32⟩
  | .hbm, ⟨47, _⟩ => ⟨S_, .f32⟩
  | .hbm, ⟨48, _⟩ => ⟨S512x512, .f32⟩
  | .hbm, ⟨49, _⟩ => ⟨S1x512, .f32⟩
  | .hbm, ⟨50, _⟩ => ⟨S512x512, .f32⟩
  | .hbm, ⟨51, _⟩ => ⟨S512x512, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_3 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩

abbrev nD : Nat := 1
abbrev τ : Topo := Topo.v7x

variable {F : FTy → Type} [FloatOps F]

class Facts₀ : Prop where
  bcast_S512x512_S512x1x512_0_2 : S512x512.BroadcastsInDim S512x1x512 (![0, 2] : Fin 2 → Fin S512x1x512.rank)
  bcast_S_S512x512 : S_.BroadcastsInDim S512x512 (![] : Fin 0 → Fin S512x512.rank)
  slices_S512x512x3_S512x512x1_0_0_0 : S512x512x3.Slices ![0, 0, 0] S512x512x1
  shapeCasts_S512x512x1_S512x512 : S512x512x1.ShapeCasts S512x512
  bcast_S512x512_S1x512x512_1_2 : S512x512.BroadcastsInDim S1x512x512 (![1, 2] : Fin 2 → Fin S1x512x512.rank)
  bcast_S512x1x512_S512x512x512_0_1_2 : S512x1x512.BroadcastsInDim S512x512x512 (![0, 1, 2] : Fin 3 → Fin S512x512x512.rank)
  bcast_S1x512x512_S512x512x512_0_1_2 : S1x512x512.BroadcastsInDim S512x512x512 (![0, 1, 2] : Fin 3 → Fin S512x512x512.rank)
  slices_S512x512x3_S512x512x1_0_0_1 : S512x512x3.Slices ![0, 0, 1] S512x512x1
  slices_S512x512x3_S512x512x1_0_0_2 : S512x512x3.Slices ![0, 0, 2] S512x512x1
  reducesTo_S512x512x512_S512x512_d2 : S512x512x512.ReducesTo [2] S512x512
  h_S_ : 0 < S_.numel
  bcast_S512_S1x512_1 : S512.BroadcastsInDim S1x512 (![1] : Fin 1 → Fin S1x512.rank)
  bcast_S1x512_S512x512_0_1 : S1x512.BroadcastsInDim S512x512 (![0, 1] : Fin 2 → Fin S512x512.rank)

variable [Facts₀]

class Facts : Prop extends Facts₀ where

variable [Facts]
-- ==== Proof.Spec.lean ====
/-
  What the layer computes, as one function of its argument arrays at the exact extended reals.

  For a batch row `b` and an output feature `o` the result is the sum over the input features `j` of one synapse's
  contribution, plus the bias of `o`. A synapse with input `x`, exponent `p` and weights `a0, a1, a2` contributes
  `a0 · x ^ p + a1 · x + a2 · x²`. The weights `a1` and `a2` are the linear and quadratic weights already multiplied by
  their 0/1 activation masks (both programs form those masked weights from the exponent array by the same host
  operations, so the masks are never opened here); `a0` is the weight of the power term.
-/
import Idealize.ShloMosaic.PureOps.Ideal
import Idealize.ShloMosaic.Lib.ValueIdx

noncomputable section

namespace Cert.QuasiPoly

open Idealize.ShloMosaic Idealize.ShloMosaic.ValueIdx
open scoped BigOperators

/-- The shape of every 512 × 512 matrix of the layer. -/
abbrev Mat : Shape := ⟨2, ![512, 512]⟩
/-- The shape of the bias vector. -/
abbrev Vec1 : Shape := ⟨1, ![512]⟩

/-- One synapse: `a0 · x ^ p + a1 · x + a2 · (x · x)`, associated as the reference writes it. -/
def synapse (x p a0 a1 a2 : EReal) : EReal := (a0 * Ideal.pow x p + a1 * x) + a2 * (x * x)

/-- Entry `(b, o)` of the layer's result: the sum of the synapses `(o, j)` applied to `x (b, j)`, plus `bias o`. -/
def layer (x p a0 a1 a2 : Mat.Idx → EReal) (bias : Vec1.Idx → EReal) (b o : Fin 512) : EReal :=
  (∑ j : Fin 512, synapse (x (ix2 b j)) (p (ix2 o j)) (a0 (ix2 o j)) (a1 (ix2 o j)) (a2 (ix2 o j))) + bias (ix1 o)

/-- The layer's result as a whole array. -/
def layerArr (x p a0 a1 a2 : Mat.Idx → EReal) (bias : Vec1.Idx → EReal) : Mat.Idx → EReal :=
  fun i => layer x p a0 a1 a2 bias (i 0) (i 1)

theorem layerArr_apply (x p a0 a1 a2 : Mat.Idx → EReal) (bias : Vec1.Idx → EReal) (b o : Fin 512) :
    layerArr x p a0 a1 a2 bias (ix2 b o) = layer x p a0 a1 a2 bias b o := rfl

end Cert.QuasiPoly

end
-- ==== Proof.PowLaw.lean ====
/-
  The one analytic law of this certificate. The reference raises a positive real base to a real exponent,
  `x ^ p`; the kernel computes the same number as `exp (p · log x)`, with `log x` taken once outside the
  reduction. For `x > 0` and finite `p` these are one real number: `x ^ p = exp (log x · p)`. Outside
  `x > 0` the two readings part (the logarithm of a non-positive number is `-∞` on the extended reals, while
  the power keeps a finite value), which is why the certificate's precondition asks for a positive base.
-/
import Idealize.ShloMosaic.PureOps.Ideal

namespace Cert.QuasiPoly

open Idealize.ShloMosaic

/-- A positive finite base to a finite exponent: the power is the exponential of exponent times logarithm. -/
theorem pow_eq_exp_mul_log {x p : EReal} (hx0 : 0 < x) (hx : x ≠ ⊤) (hp : p ≠ ⊥) (hp' : p ≠ ⊤) :
    Ideal.pow x p = Ideal.exp (p * Ideal.log x) := by
  induction x using EReal.rec with
  | bot => exact absurd hx0 (by simp)
  | top => exact absurd rfl hx
  | coe r =>
    induction p using EReal.rec with
    | bot => exact absurd rfl hp
    | top => exact absurd rfl hp'
    | coe q =>
      have hr : 0 < r := by exact_mod_cast hx0
      rw [Ideal.pow_coe_coe, Ideal.log_coe, if_neg (not_le.mpr hr), ← EReal.coe_mul, Ideal.exp_coe]
      congr 1
      rw [mul_comm]
      exact Real.rpow_def_of_pos hr q

end Cert.QuasiPoly
-- ==== Proof.Algebra.lean ====
/-
  The arithmetic that joins the two programs, over the extended reals.

  The kernel splits the reference's one sum over the 512 input features three ways — the power terms, the linear terms
  and the quadratic terms are summed separately — and sums the power terms in four chunks of 128 lanes. Addition of
  extended reals is commutative and associative (also at the infinities), so neither regrouping changes the value, and
  the products commute. The power term itself, `x ^ p` in the reference and `exp (p · log x)` in the kernel, is one
  number for a positive finite `x` and a finite `p` (PowLaw).
-/
import proofs.«150817_j26551487824340_2_alg».proof.Proof.Spec
import proofs.«150817_j26551487824340_2_alg».proof.Proof.PowLaw

noncomputable section

namespace Cert.QuasiPoly

open Idealize.ShloMosaic Idealize.ShloMosaic.ValueIdx
open scoped BigOperators

/-- Lane `c` of chunk `k` is input feature `128 k + c`. -/
def lane (k : ℕ) (hk : k < 4) (c : Fin 128) : Fin 512 := ⟨128 * k + c.val, by have := c.isLt; omega⟩

/-- A sum over the 512 input features is the four chunk sums added in order. -/
theorem sum_chunks (f : Fin 512 → EReal) :
    ∑ j : Fin 512, f j
      = ((∑ c : Fin 128, f (lane 0 (by decide) c) + ∑ c : Fin 128, f (lane 1 (by decide) c))
          + ∑ c : Fin 128, f (lane 2 (by decide) c)) + ∑ c : Fin 128, f (lane 3 (by decide) c) := by
  have e : ∑ j : Fin 512, f j = ∑ kc : Fin 4 × Fin 128, f (finProdFinEquiv kc) :=
    (Equiv.sum_comp (finProdFinEquiv (m := 4) (n := 128)) f).symm
  rw [e, Fintype.sum_prod_type, Fin.sum_univ_four]
  refine congrArg₂ (· + ·) (congrArg₂ (· + ·) (congrArg₂ (· + ·) ?_ ?_) ?_) ?_ <;>
    refine Finset.sum_congr rfl fun c _ => congrArg f (Fin.ext ?_) <;>
    simp [finProdFinEquiv, lane] <;> omega

/-- The layer with the power terms written `exp (p · l)` for an array `l` of logarithms, the three kinds of terms
    summed separately, the masked linear and quadratic weights stored transposed (`[input, output]`) and the bias as a
    one-row matrix: the form the kernel computes. -/
def fused (x l p a0 a1t a2t : Mat.Idx → EReal) (b2 : (⟨2, ![1, 512]⟩ : Shape).Idx → EReal) (b o : Fin 512) : EReal :=
  (((∑ j : Fin 512, a0 (ix2 o j) * Ideal.exp (p (ix2 o j) * l (ix2 b j)))
      + ∑ e : Fin 512, x (ix2 b e) * a1t (ix2 e o))
    + ∑ e : Fin 512, (x (ix2 b e) * x (ix2 b e)) * a2t (ix2 e o)) + b2 (ix2 (0 : Fin 1) o)

/-- The kernel's form as a whole array. -/
def fusedArr (x l p a0 a1t a2t : Mat.Idx → EReal) (b2 : (⟨2, ![1, 512]⟩ : Shape).Idx → EReal) : Mat.Idx → EReal :=
  fun i => fused x l p a0 a1t a2t b2 (i 0) (i 1)

theorem fusedArr_apply (x l p a0 a1t a2t : Mat.Idx → EReal) (b2 : (⟨2, ![1, 512]⟩ : Shape).Idx → EReal) (b o : Fin 512) :
    fusedArr x l p a0 a1t a2t b2 (ix2 b o) = fused x l p a0 a1t a2t b2 b o := rfl

/-- The kernel's form is the layer: for positive finite inputs and finite exponents, with `l` the logarithm of `x`, the
    transposed weights and the bias row read back where they came from. -/
theorem fused_eq_layer (x l p a0 a1 a2 a1t a2t : Mat.Idx → EReal) (bias : Vec1.Idx → EReal)
    (b2 : (⟨2, ![1, 512]⟩ : Shape).Idx → EReal)
    (hx : ∀ i, (0 : EReal) < x i ∧ x i ≠ ⊤) (hp : ∀ i, p i ≠ ⊥ ∧ p i ≠ ⊤)
    (hl : ∀ i, l i = Ideal.log (x i))
    (h1 : ∀ e o : Fin 512, a1t (ix2 e o) = a1 (ix2 o e)) (h2 : ∀ e o : Fin 512, a2t (ix2 e o) = a2 (ix2 o e))
    (hb : ∀ o : Fin 512, b2 (ix2 (0 : Fin 1) o) = bias (ix1 o)) (b o : Fin 512) :
    fused x l p a0 a1t a2t b2 b o = layer x p a0 a1 a2 bias b o := by
  unfold fused layer synapse
  rw [hb, Finset.sum_add_distrib, Finset.sum_add_distrib]
  refine congrArg (· + bias (ix1 o)) (congrArg₂ (· + ·) (congrArg₂ (· + ·) ?_ ?_) ?_)
  · refine Finset.sum_congr rfl fun j _ => congrArg (a0 (ix2 o j) * ·) ?_
    rw [hl, pow_eq_exp_mul_log (hx _).1 (hx _).2 (hp _).1 (hp _).2]
  · exact Finset.sum_congr rfl fun e _ => by rw [h1, mul_comm]
  · exact Finset.sum_congr rfl fun e _ => by rw [h2, mul_comm]

end Cert.QuasiPoly

end
-- ==== Proof.RefSpec.lean ====
/-
  The reference program's result is the layer of the specification, for every argument (no precondition).

  The reference forms, on the 512 × 512 × 512 cube indexed by (batch row b, output feature o, input feature j), the
  synapse value  a0(o,j) · x(b,j) ^ p(o,j) + a1(o,j) · x(b,j) + a2(o,j) · (x(b,j) · x(b,j)),  each operand carried onto the
  cube by two broadcasts; it then sums the cube along j starting from the constant zero and adds the bias of o,
  broadcast along b. Read at an entry (b, o) this is the specification's `layer`: a sum over j of `synapse` plus the bias.

  The three weight arrays a0, a1, a2 stay the generated stage functions that produce them from the arguments (the
  power-term weights, and the linear and quadratic weights times their 0/1 masks); they are never opened here.
-/
import proofs.«150817_j26551487824340_2_alg».proof.Proof.Gen.ReferenceIdeal.Read
import proofs.«150817_j26551487824340_2_alg».proof.Proof.Spec

noncomputable section

namespace Cert.QuasiPoly.Ref

open Cert.ReferenceIdeal Cert.ReferenceIdeal.Read Idealize.ShloMosaic Idealize.ShloMosaic.ValueIdx
open scoped BigOperators

/-! ## Where each broadcast operand of the cube reads its source

Every operand of the cube is a 512 × 512 array carried to 512 × 512 × 512 through an intermediate array with one unit
axis. An array indexed by (o, j) is read at (o, j) whatever b is; the input x, indexed by (b, j), is read at (b, j)
whatever o is. -/

/-- The input on the cube, as the power's base: entry (b, o, j) is x(b, j). -/
theorem base_at (x0 : (⟨S512x512, .f32⟩ : BufTy).Contents (Elt Ideal)) (b o j : Fin 512) :
    val_main_v15 (F := Ideal) x0 (ix3 b o j) = x0 (ix2 b j) := by
  rw [val_main_v15_apply, val_main_v0_apply]
  exact congrArg x0 (funext fun a => Fin.ext (by match a with | ⟨0, _⟩ => rfl | ⟨1, _⟩ => rfl))

/-- The input on the cube, as the linear term's factor: entry (b, o, j) is x(b, j). -/
theorem input_at (x0 : (⟨S512x512, .f32⟩ : BufTy).Contents (Elt Ideal)) (b o j : Fin 512) :
    val_main_v26 (F := Ideal) x0 (ix3 b o j) = x0 (ix2 b j) := by
  rw [val_main_v26_apply, val_main_v0_apply]
  exact congrArg x0 (funext fun a => Fin.ext (by match a with | ⟨0, _⟩ => rfl | ⟨1, _⟩ => rfl))

/-- The squared input on the cube: entry (b, o, j) is x(b, j) · x(b, j). The square is taken before the broadcast. -/
theorem square_at (x0 : (⟨S512x512, .f32⟩ : BufTy).Contents (Elt Ideal)) (b o j : Fin 512) :
    val_main_v35 (F := Ideal) x0 (ix3 b o j) = x0 (ix2 b j) * x0 (ix2 b j) := by
  have h : idx_main_v0 (idx_main_v35 (ix3 b o j)) = ix2 b j :=
    funext fun a => Fin.ext (by match a with | ⟨0, _⟩ => rfl | ⟨1, _⟩ => rfl)
  rw [val_main_v35_apply, val_main_v32_apply, val_main_v0_apply, h, Ideal.mulf_def]

/-- The exponents on the cube: entry (b, o, j) is p(o, j). -/
theorem exponent_at (x1 : (⟨S512x512, .f32⟩ : BufTy).Contents (Elt Ideal)) (b o j : Fin 512) :
    val_main_v16 (F := Ideal) x1 (ix3 b o j) = x1 (ix2 o j) := by
  rw [val_main_v16_apply, val_main_v14_apply]
  exact congrArg x1 (funext fun a => Fin.ext (by match a with | ⟨0, _⟩ => rfl | ⟨1, _⟩ => rfl))

/-- The power-term weights on the cube: entry (b, o, j) is a0(o, j). -/
theorem weight0_at (x2 : (⟨S512x512x3, .f32⟩ : BufTy).Contents (Elt Ideal)) (b o j : Fin 512) :
    val_main_v19 (F := Ideal) x2 (ix3 b o j) = val_main_v13 (F := Ideal) x2 (ix2 o j) := by
  rw [val_main_v19_apply, val_main_v18_apply]
  exact congrArg (val_main_v13 (F := Ideal) x2)
    (funext fun a => Fin.ext (by match a with | ⟨0, _⟩ => rfl | ⟨1, _⟩ => rfl))

/-- The masked linear weights on the cube: entry (b, o, j) is a1(o, j). -/
theorem weight1_at (x1 : (⟨S512x512, .f32⟩ : BufTy).Contents (Elt Ideal))
    (x2 : (⟨S512x512x3, .f32⟩ : BufTy).Contents (Elt Ideal)) (b o j : Fin 512) :
    val_main_v25 (F := Ideal) x1 x2 (ix3 b o j) = val_main_v23 (F := Ideal) x1 x2 (ix2 o j) := by
  rw [val_main_v25_apply, val_main_v24_apply]
  exact congrArg (val_main_v23 (F := Ideal) x1 x2)
    (funext fun a => Fin.ext (by match a with | ⟨0, _⟩ => rfl | ⟨1, _⟩ => rfl))

/-- The masked quadratic weights on the cube: entry (b, o, j) is a2(o, j). -/
theorem weight2_at (x1 : (⟨S512x512, .f32⟩ : BufTy).Contents (Elt Ideal))
    (x2 : (⟨S512x512x3, .f32⟩ : BufTy).Contents (Elt Ideal)) (b o j : Fin 512) :
    val_main_v34 (F := Ideal) x1 x2 (ix3 b o j) = val_main_v31 (F := Ideal) x1 x2 (ix2 o j) := by
  rw [val_main_v34_apply, val_main_v33_apply]
  exact congrArg (val_main_v31 (F := Ideal) x1 x2)
    (funext fun a => Fin.ext (by match a with | ⟨0, _⟩ => rfl | ⟨1, _⟩ => rfl))

/-- The bias on the result's shape: entry (b, o) is bias(o). -/
theorem bias_at (x4 : (⟨S512, .f32⟩ : BufTy).Contents (Elt Ideal)) (b o : Fin 512) :
    val_main_v40 (F := Ideal) x4 (ix2 b o) = x4 (ix1 o) := by
  rw [val_main_v40_apply, val_main_v39_apply]
  exact congrArg x4 (funext fun a => Fin.ext (by match a with | ⟨0, _⟩ => rfl))

/-! ## One entry of the cube is one synapse -/

/-- Entry (b, o, j) of the summed cube is the synapse (o, j) applied to x(b, j): the reference multiplies weight
    first and associates the three terms to the left, exactly as `synapse` is written. -/
theorem term_at (x0 x1 : (⟨S512x512, .f32⟩ : BufTy).Contents (Elt Ideal))
    (x2 : (⟨S512x512x3, .f32⟩ : BufTy).Contents (Elt Ideal)) (b o j : Fin 512) :
    val_main_v37 (F := Ideal) x0 x1 x2 (ix3 b o j)
      = synapse (x0 (ix2 b j)) (x1 (ix2 o j)) (val_main_v13 (F := Ideal) x2 (ix2 o j))
          (val_main_v23 (F := Ideal) x1 x2 (ix2 o j)) (val_main_v31 (F := Ideal) x1 x2 (ix2 o j)) := by
  rw [val_main_v37_apply, val_main_v28_apply, val_main_v20_apply, val_main_v27_apply, val_main_v36_apply,
    val_main_v17_apply, weight0_at, base_at, exponent_at, weight1_at, input_at, weight2_at, square_at]
  simp only [Ideal.addf_def, Ideal.mulf_def, Ideal.hostPowf_def]
  rfl

/-! ## The whole result -/

/-- The reference's result is the specification's layer of the arguments and the three weight arrays. -/
theorem reference_eq (x0 x1 : (⟨S512x512, .f32⟩ : BufTy).Contents (Elt Ideal))
    (x2 : (⟨S512x512x3, .f32⟩ : BufTy).Contents (Elt Ideal)) (x4 : (⟨S512, .f32⟩ : BufTy).Contents (Elt Ideal)) :
    val_main_v41 (F := Ideal) x0 x1 x2 x4
      = Cert.QuasiPoly.layerArr x0 x1 (val_main_v13 (F := Ideal) x2) (val_main_v23 (F := Ideal) x1 x2)
          (val_main_v31 (F := Ideal) x1 x2) x4 := by
  funext i
  obtain ⟨b, o, rfl⟩ : ∃ (b o : Fin 512), i = ix2 b o := ⟨i 0, i 1, eq_ix2 i⟩
  rw [layerArr_apply]
  unfold layer
  rw [val_main_v41_apply, val_main_v38_apply, bias_at, val_main_cst_3_apply, Ideal.addf_def, Ideal.ofBits_def,
    Ideal.ofBits_zero_f32, zero_add]
  refine congrArg (· + x4 (ix1 o)) (Finset.sum_congr rfl fun j _ => ?_)
  have h : idx_main_v38 (ix2 b o) j = ix3 b o j :=
    funext fun a => Fin.ext (by match a with | ⟨0, _⟩ => rfl | ⟨1, _⟩ => rfl | ⟨2, _⟩ => rfl)
  rw [h, term_at]

end Cert.QuasiPoly.Ref

end
-- ==== Proof.PreFacts.lean ====
/-
  The precondition read back as pointwise facts about the input `x` and the exponent array.

  The precondition is a conjunction of "all" tests, each a reduction by "and" of an array of one-bit comparisons. When the
  conjunction is 1 every test is 1, and when a reduction by "and" over all axes is 1 every element of its operand is 1.
  The element tests are `|v| < +∞` (for every float input) and `x > 0`. At the extended reals `|v|` is
  `max v (-v)`, and `max v (-v) < ⊤` says `v` is neither `⊤` nor `⊥`; the pattern
  `0x7F800000` denotes `⊤` and the pattern `0` denotes `0`.
-/
import proofs.«150817_j26551487824340_2_alg».proof.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.QuasiPoly.Pre

open Idealize.ShloMosaic Cert.Pre_finite_inputs

/-- The rank-0 shape has one index. -/
instance subsingleton_scalar_idx : Subsingleton S_.Idx := ⟨fun a b => funext fun d => d.elim0⟩

/-- A truth value printed as a one-bit word is the word 1 exactly when it is true. -/
theorem ofBool_eq_one (b : Bool) : BitVec.ofBool b = 1#1 ↔ b = true := by cases b <;> decide

/-- The binary32 pattern with all exponent bits set and no fraction bit denotes `+∞`. -/
theorem ofBits_inf_f32 : Ideal.ofBits .f32 0x7F800000#32 = ⊤ := by simp [Ideal.ofBits, Ideal.ieee]

/-- `|v| < +∞` at the extended reals: `v` is neither infinity. -/
theorem finite_of_abs_lt (v : EReal)
    (h : Ideal.cmp .olt (max v (-v)) (Ideal.ofBits .f32 0x7F800000#32) = 1#1) : v ≠ ⊥ ∧ v ≠ ⊤ := by
  rw [ofBits_inf_f32] at h
  unfold Ideal.cmp at h
  rw [ofBool_eq_one] at h
  simp only [decide_eq_true_eq] at h
  obtain ⟨h1, h2⟩ := max_lt_iff.1 h
  refine ⟨?_, ne_of_lt h1⟩
  rintro rfl
  exact absurd h2 (by simp)

/-- `v > 0` against the pattern of zero. -/
theorem pos_of_gt_zero (v : EReal)
    (h : Ideal.cmp .ogt v (Ideal.ofBits .f32 0x00000000#32) = 1#1) : 0 < v := by
  rw [Ideal.ofBits_zero_f32] at h
  unfold Ideal.cmp at h
  rw [ofBool_eq_one] at h
  simpa using h

/-- The precondition decoded: every entry of `x` is positive and not `+∞`, every exponent is a real number. -/
theorem decode [Cert.Pre_finite_inputs.Facts] (a0 a1 : FVec Ideal S512x512 .f32) (a2 : FVec Ideal S512x512x3 .f32)
    (a3 a4 : FVec Ideal S512 .f32)
    (h : Cert.Pre_finite_inputs.fn (F := Ideal) a0 a1 a2 a3 a4 = fun _ => 1#1) :
    (∀ i : S512x512.Idx, (0 : EReal) < a0 i ∧ a0 i ≠ ⊤) ∧ (∀ i : S512x512.Idx, a1 i ≠ ⊥ ∧ a1 i ≠ ⊤) := by
  have e := congrFun h ValueIdx.ix0
  dsimp only [Cert.Pre_finite_inputs.fn, Cert.Pre_finite_inputs.fn_part1] at e
  simp only [andi] at e
  obtain ⟨e, hpos⟩ := IntOp.andi_eq_one.1 e
  obtain ⟨e, -⟩ := IntOp.andi_eq_one.1 e
  obtain ⟨e, -⟩ := IntOp.andi_eq_one.1 e
  obtain ⟨e, -⟩ := IntOp.andi_eq_one.1 e
  obtain ⟨hx, hp⟩ := IntOp.andi_eq_one.1 e
  have Hpos := Host.reduce_andi_all _ _ _ _ _ hpos
  have Hx := Host.reduce_andi_all _ _ _ _ _ hx
  have Hp := Host.reduce_andi_all _ _ _ _ _ hp
  exact ⟨fun i => ⟨pos_of_gt_zero (a0 i) (Hpos i), (finite_of_abs_lt (a0 i) (Hx i)).2⟩,
    fun i => finite_of_abs_lt (a1 i) (Hp i)⟩

end Cert.QuasiPoly.Pre

end
-- ==== Proof.HostSide.lean ====
/-
  The arrays the region finds, from the arguments.

  Before the kernel is launched the host program takes the logarithm of the input array, forms the power-term weights
  and the masked linear and quadratic weights from the exponent and weight arrays — by the very operations the
  reference applies, so they are named here by the reference's own stage functions and never opened —, transposes the
  two masked weight matrices, and views the bias vector as a one-row matrix. Each is read here at an index.
-/
import proofs.«150817_j26551487824340_2_alg».proof.Proof.Gen.KernelIdeal.Frame
import proofs.«150817_j26551487824340_2_alg».proof.Proof.Gen.ReferenceIdeal.Read
import Idealize.ShloMosaic.Lib.StableHlo.Run
import Idealize.ShloMosaic.Lib.ValueLayout

set_option maxRecDepth 16384

noncomputable section

namespace Cert.QuasiPoly.Ker

open Cert.KernelIdeal Cert.KernelIdeal.Gen Idealize.ShloMosaic Idealize.ShloMosaic.TcCoe Idealize.ShloMosaic.ValueIdx
open Idealize.SL Idealize.SL.Sem Idealize.ShloMosaic.StableHlo
open Cert.KernelIdeal.Facts₀ Cert.KernelIdeal.Facts

variable (m : (ℓ : Loc nD τ sig) → Buf (Elt Ideal) ℓ)

/-- The array of logarithms the region finds: entry `i` is the logarithm of the input's entry `i`. -/
theorem V_log (c : Dev nD) (i : S512x512.Idx) :
    (V m c main_v0 : S512x512.Idx → EReal) i = Ideal.log (((m ((c : Thread nD τ).loc main_arg0)) : S512x512.Idx → EReal) i) := by
  have h : (V m c main_v0 : S512x512.Idx → EReal)
      = (Host.log (F := Ideal) ((m ((c : Thread nD τ).loc main_arg0)) : FVec Ideal S512x512 .f32) : FVec Ideal S512x512 .f32) := by
    dsimp only [Gen.V, Gen.hostOps0]
    after_results <;> rfl
  rw [h]
  rfl

/-- The power-term weights the region finds are the reference's. -/
theorem V_w0 (c : Dev nD) :
    (V m c main_v13 : S512x512.Idx → EReal) = Cert.ReferenceIdeal.Read.val_main_v13 (F := Ideal) (m ((c : Thread nD τ).loc main_arg2)) := by
  dsimp only [Gen.V, Gen.hostOps0]
  after_results <;> rfl

/-- The transposed masked linear weights the region finds: entry `(e, o)` is the reference's masked weight `(o, e)`. -/
theorem V_a1 (c : Dev nD) (e o : Fin 512) :
    (V m c main_v20 : S512x512.Idx → EReal) (ix2 e o)
      = Cert.ReferenceIdeal.Read.val_main_v23 (F := Ideal) (m ((c : Thread nD τ).loc main_arg1)) (m ((c : Thread nD τ).loc main_arg2)) (ix2 o e) := by
  have h : (V m c main_v20 : S512x512.Idx → EReal)
      = (truncf .bf16 (transpose S512x512 [1, 0]
          (Cert.ReferenceIdeal.Read.val_main_v23 (F := Ideal) (m ((c : Thread nD τ).loc main_arg1)) (m ((c : Thread nD τ).loc main_arg2)) : FVec Ideal S512x512 .f32)
          Gen.transposes_S512x512_S512x512_1_0 : FVec Ideal S512x512 .f32) Gen.bitsLt_bf16_f32 : FVec Ideal S512x512 .bf16) := by
    dsimp only [Gen.V, Gen.hostOps0]
    after_results <;> rfl
  rw [h]
  refine (truncf_apply (φ := .f32) (ψ := .bf16) _ Gen.bitsLt_bf16_f32 (ix2 e o)).trans ?_
  exact transpose_ix2_apply _ _ e o

/-- The transposed masked quadratic weights the region finds: entry `(e, o)` is the reference's masked weight `(o, e)`. -/
theorem V_a2 (c : Dev nD) (e o : Fin 512) :
    (V m c main_v23 : S512x512.Idx → EReal) (ix2 e o)
      = Cert.ReferenceIdeal.Read.val_main_v31 (F := Ideal) (m ((c : Thread nD τ).loc main_arg1)) (m ((c : Thread nD τ).loc main_arg2)) (ix2 o e) := by
  have h : (V m c main_v23 : S512x512.Idx → EReal)
      = (truncf .bf16 (transpose S512x512 [1, 0]
          (Cert.ReferenceIdeal.Read.val_main_v31 (F := Ideal) (m ((c : Thread nD τ).loc main_arg1)) (m ((c : Thread nD τ).loc main_arg2)) : FVec Ideal S512x512 .f32)
          Gen.transposes_S512x512_S512x512_1_0 : FVec Ideal S512x512 .f32) Gen.bitsLt_bf16_f32 : FVec Ideal S512x512 .bf16) := by
    dsimp only [Gen.V, Gen.hostOps0]
    after_results <;> rfl
  rw [h]
  refine (truncf_apply (φ := .f32) (ψ := .bf16) _ Gen.bitsLt_bf16_f32 (ix2 e o)).trans ?_
  exact transpose_ix2_apply _ _ e o

/-- The bias row the region finds: entry `(0, o)` is the bias of `o`. -/
theorem V_bias (c : Dev nD) (o : Fin 512) :
    (V m c main_v24 : S1x512.Idx → EReal) (ix2 (0 : Fin 1) o) = ((m ((c : Thread nD τ).loc main_arg4)) : S512.Idx → EReal) (ix1 o) := by
  have h : (V m c main_v24 : S1x512.Idx → EReal)
      = shapeCast S1x512 ((m ((c : Thread nD τ).loc main_arg4)) : S512.Idx → EReal) Gen.shapeCasts_S512_S1x512 := by
    dsimp only [Gen.V, Gen.hostOps0]
    after_results <;> rfl
  rw [h]
  exact shapeCast_a_1a_apply _ _ 0 o

end Cert.QuasiPoly.Ker

end
-- ==== Proof.LibRank3Layout.lean ====
/-
  Rank-3 layout operations and lane reductions read at an index, over literal-size index constructors.

  A flat array of `a * b` rows viewed as `a` groups of `b` rows; the keep-dimension cast that appends a unit axis; the
  broadcast of that unit axis along the lanes; the broadcast of a leading unit axis over the groups; and, at the
  exact extended reals, the lane sum and the lane maximum of a rank-3 array and the row sum of a rank-2 array, each
  as a sum or a fold over `Fin` of the operand at the index with the reduced coordinate inserted.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibRank3

open Idealize.ShloMosaic Idealize.ShloMosaic.ValueIdx

variable {α : Type}

/-- `[n, d]` viewed `[a, b, d]` (so `n = a * b`): entry `(p, q, r)` is row `p * b + q`, column `r`. -/
theorem shapeCast_rows_apply {n a b d : ℕ} (x : (⟨2, ![n, d]⟩ : Shape).Idx → α)
    (h : (⟨2, ![n, d]⟩ : Shape).ShapeCasts ⟨3, ![a, b, d]⟩) (p : Fin a) (q : Fin b) (r : Fin d)
    (hpq : p.val * b + q.val < n) :
    shapeCast ⟨3, ![a, b, d]⟩ x h (ix3 p q r) = x (ix2 ⟨p.val * b + q.val, hpq⟩ r) := by
  refine shapeCast_apply x h _ _ ?_
  rw [Shape.rowMajor_val_two, Shape.rowMajor_val_three]
  rfl

/-- `[a, b]` viewed `[a, b, 1]`: entry `(p, q, 0)` is entry `(p, q)`. -/
theorem shapeCast_keepdim_apply {a b : ℕ} (x : (⟨2, ![a, b]⟩ : Shape).Idx → α)
    (h : (⟨2, ![a, b]⟩ : Shape).ShapeCasts ⟨3, ![a, b, 1]⟩) (p : Fin a) (q : Fin b) (z : Fin 1) :
    shapeCast ⟨3, ![a, b, 1]⟩ x h (ix3 p q z) = x (ix2 p q) := by
  refine shapeCast_apply x h _ _ ?_
  rw [Shape.rowMajor_val_two, Shape.rowMajor_val_three]
  show p.val * b + q.val = (p.val * b + q.val) * 1 + z.val
  have := z.isLt
  omega

/-- `[a, b, 1]` broadcast along the lanes to `[a, b, c]`: entry `(p, q, r)` is entry `(p, q, 0)`. -/
theorem broadcastTo_lane_apply {a b c : ℕ} (x : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ x h (ix3 p q r) = x (ix3 p q ⟨0, Nat.one_pos⟩) := by
  refine broadcastTo_apply x h _ _ fun d => ?_
  match d with
  | ⟨0, _⟩ =>
    show p.val = if a = 1 then 0 else p.val
    split_ifs with h1
    · have := p.isLt; omega
    · rfl
  | ⟨1, _⟩ =>
    show q.val = if b = 1 then 0 else q.val
    split_ifs with h1
    · have := q.isLt; omega
    · rfl
  | ⟨2, _⟩ =>
    show (0 : ℕ) = if (1 : ℕ) = 1 then 0 else r.val
    rw [if_pos rfl]

/-- `[1, b, c]` broadcast over the groups to `[a, b, c]`: entry `(p, q, r)` is entry `(0, q, r)`. -/
theorem broadcastTo_group_apply {a b c : ℕ} (x : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ x h (ix3 p q r) = x (ix3 ⟨0, Nat.one_pos⟩ q r) := by
  refine broadcastTo_apply x h _ _ fun d => ?_
  match d with
  | ⟨0, _⟩ =>
    show (0 : ℕ) = if (1 : ℕ) = 1 then 0 else p.val
    rw [if_pos rfl]
  | ⟨1, _⟩ =>
    show q.val = if b = 1 then 0 else q.val
    split_ifs with h1
    · have := q.isLt; omega
    · rfl
  | ⟨2, _⟩ =>
    show r.val = if c = 1 then 0 else r.val
    split_ifs with h1
    · have := r.isLt; omega
    · rfl

/-- The lane sum of a rank-3 array at the exact extended reals: at `(p, q)` the sum over `k` of entry `(p, q, k)`. -/
theorem sum_lane_apply {a b c : ℕ} (src : FVec Ideal ⟨3, ![a, b, c]⟩ .f32) (acc : BitVec 32)
    (h : (⟨3, ![a, b, c]⟩ : Shape).Reduces [2] ⟨2, ![a, b]⟩) (hφ : FKind.Formats .f32)
    (hacc : acc = FKind.add.neutral .f32 hφ) (p : Fin a) (q : Fin b) :
    multiReduction .add [2] ⟨2, ![a, b]⟩ src acc h hφ hacc (ix2 p q) = ∑ k : Fin c, src (ix3 p q k) := by
  refine (Ideal.multiReduction_add_single src acc h hφ hacc (ix2 p q)).trans ?_
  refine Finset.sum_congr rfl fun k _ => congrArg src (funext fun d => Fin.ext ?_)
  match d with
  | ⟨0, _⟩ => rfl
  | ⟨1, _⟩ => rfl
  | ⟨2, _⟩ => rfl

/-- The lane maximum of a rank-3 array at the exact extended reals: at `(p, q)` the fold of `max`, from the value of the
    starting pattern, over `k` of entry `(p, q, k)`. -/
theorem max_lane_apply {a b c : ℕ} (src : FVec Ideal ⟨3, ![a, b, c]⟩ .f32) (acc : BitVec 32)
    (h : (⟨3, ![a, b, c]⟩ : Shape).Reduces [2] ⟨2, ![a, b]⟩) (hφ : FKind.Formats .f32)
    (hacc : acc = FKind.maximumf.neutral .f32 hφ) (p : Fin a) (q : Fin b) :
    multiReduction .maximumf [2] ⟨2, ![a, b]⟩ src acc h hφ hacc (ix2 p q)
      = (Finset.univ : Finset (Fin c)).fold max (Ideal.ofBits .f32 acc) (fun k => src (ix3 p q k)) := by
  refine (Ideal.multiReduction_maximumf_single src acc h hφ hacc (ix2 p q)).trans ?_
  refine congrArg (Finset.fold max (Ideal.ofBits .f32 acc) · Finset.univ) (funext fun k => congrArg src (funext fun d => Fin.ext ?_))
  match d with
  | ⟨0, _⟩ => rfl
  | ⟨1, _⟩ => rfl
  | ⟨2, _⟩ => rfl

/-- The row sum of a rank-2 array at the exact extended reals: at `p` the sum over `k` of entry `(p, k)`. -/
theorem sum_row_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun d => Fin.ext ?_)
  match d with
  | ⟨0, _⟩ => rfl
  | ⟨1, _⟩ => rfl

end Cert.LibRank3

end
-- ==== Proof.LibRowAxis.lean ====
/-
  A unit axis in the middle of a rank-3 shape, read at an index: general layout lemmas.

  A matrix `[a, d]` viewed as `[a, 1, d]` keeps its row-major order, so entry `(p, 0, r)` of the view is entry `(p, r)`
  of the matrix; and an `[a, 1, d]` array broadcast along its middle axis to `[a, b, d]` repeats row `p` for every
  middle coordinate, so entry `(p, q, r)` of the broadcast is entry `(p, 0, r)` of the operand.
-/
import Idealize.ShloMosaic.Lib.Pipeline.Value
import Idealize.ShloMosaic.Lib.ValueIdx

namespace Cert.LibRowAxis

open Idealize.ShloMosaic Idealize.ShloMosaic.ValueIdx

variable {α : Type}

/-- `[a, d]` viewed `[a, 1, d]`: entry `(p, z, r)` (with `z` the only coordinate of the unit axis) is entry `(p, r)`. -/
theorem shapeCast_ad_a1d_apply {a d : ℕ} (x : (⟨2, ![a, d]⟩ : Shape).Idx → α)
    (h : (⟨2, ![a, d]⟩ : Shape).ShapeCasts ⟨3, ![a, 1, d]⟩) (p : Fin a) (z : Fin 1) (r : Fin d) :
    shapeCast ⟨3, ![a, 1, d]⟩ x h (ix3 p z r) = x (ix2 p r) := by
  refine shapeCast_apply x h _ _ ?_
  rw [Shape.rowMajor_val_two, Shape.rowMajor_val_three]
  show p.val * d + r.val = (p.val * 1 + z.val) * d + r.val
  have hz : z.val = 0 := by have := z.isLt; omega
  rw [hz, Nat.mul_one, Nat.add_zero]

/-- `[a, 1, d]` broadcast along the middle axis to `[a, b, d]`: entry `(p, q, r)` is entry `(p, 0, r)`. -/
theorem broadcastTo_a1d_abd_apply {a b d : ℕ} (x : (⟨3, ![a, 1, d]⟩ : Shape).Idx → α)
    (h : (⟨3, ![a, 1, d]⟩ : Shape).Broadcasts ⟨3, ![a, b, d]⟩) (p : Fin a) (q : Fin b) (r : Fin d) :
    broadcastTo ⟨3, ![a, b, d]⟩ x h (ix3 p q r) = x (ix3 p ⟨0, Nat.one_pos⟩ r) := by
  refine broadcastTo_apply x h _ _ fun ax => ?_
  match ax with
  | ⟨0, _⟩ =>
    show p.val = if a = 1 then 0 else p.val
    split_ifs with h1
    · have := p.isLt; omega
    · rfl
  | ⟨1, _⟩ =>
    show (0 : ℕ) = if (1 : ℕ) = 1 then 0 else q.val
    rw [if_pos rfl]
  | ⟨2, _⟩ =>
    show r.val = if d = 1 then 0 else r.val
    split_ifs with h1
    · have := r.isLt; omega
    · rfl

end Cert.LibRowAxis
-- ==== Proof.LibMatmulNN.lean ====
/-
  A plain matrix product read at an index at the exact extended reals: a general lemma.

  With dimension numbers that contract axis 1 of an `[M, K]` left factor with axis 0 of a `[K, N]` right factor (no
  batch axes; the result `[M, N]`), and a zero accumulator, entry `(p, q)` of the product is the sum over `e` of
  `lhs (p, e) * rhs (e, q)`: row `p` of the left factor against column `q` of the right one.
-/
import Idealize.ShloMosaic.PureOps.Ideal
import Idealize.ShloMosaic.PureOps.Ideal.Laws
import Idealize.ShloMosaic.Lib.ValueIdx

noncomputable section

namespace Cert.LibMatmulNN

open Idealize.ShloMosaic Idealize.ShloMosaic.ValueIdx

variable {M N K : ℕ}

/-- The dimension numbers "rows against columns": contract axis 1 with axis 0, keep axis 0 of the left factor and
    axis 1 of the right one, no batch. -/
abbrev dims (wf : DotDims.WF (⟨2, ![M, K]⟩ : Shape) (⟨2, ![K, N]⟩ : Shape) (⟨2, ![M, N]⟩ : Shape) [1] [0] [0] [1] [] []) :
    DotDims (⟨2, ![M, K]⟩ : Shape) (⟨2, ![K, N]⟩ : Shape) (⟨2, ![M, N]⟩ : Shape) where
  lhsContracting := [1]
  rhsContracting := [0]
  lhsNonContracting := [0]
  rhsNonContracting := [1]
  lhsBatch := []
  rhsBatch := []
  wf := wf

variable (wf : DotDims.WF (⟨2, ![M, K]⟩ : Shape) (⟨2, ![K, N]⟩ : Shape) (⟨2, ![M, N]⟩ : Shape) [1] [0] [0] [1] [] [])

/-- The left index keeps the result's row coordinate on its row axis. -/
theorem lhsIdx_row (j : (⟨2, ![M, N]⟩ : Shape).Idx) (k : (dims wf).contr.Idx) :
    ((dims wf).lhsIdx j k 0).val = (j 0).val := by
  unfold DotDims.lhsIdx
  rw [dif_neg (show ¬(0 : Fin (⟨2, ![M, K]⟩ : Shape).rank) ∈ (dims wf).lhsBatch from List.not_mem_nil),
    dif_pos (show (0 : Fin (⟨2, ![M, K]⟩ : Shape).rank) ∈ (dims wf).lhsNonContracting from List.mem_singleton.mpr rfl)]
  rfl

/-- The right index keeps the result's column coordinate on its column axis. -/
theorem rhsIdx_col (j : (⟨2, ![M, N]⟩ : Shape).Idx) (k : (dims wf).contr.Idx) :
    ((dims wf).rhsIdx j k 1).val = (j 1).val := by
  unfold DotDims.rhsIdx
  rw [dif_neg (show ¬(1 : Fin (⟨2, ![K, N]⟩ : Shape).rank) ∈ (dims wf).rhsBatch from List.not_mem_nil),
    dif_pos (show (1 : Fin (⟨2, ![K, N]⟩ : Shape).rank) ∈ (dims wf).rhsNonContracting from List.mem_singleton.mpr rfl)]
  rfl

/-- The left index at result `(p, q)` and contraction position `e` is `(p, e)`. -/
theorem lhsIdx_eq (p : Fin M) (q : Fin N) (e : Fin K) :
    (dims wf).lhsIdx (ix2 p q) ((contrEquiv1 (dims wf) K rfl rfl).symm e) = ix2 p e := by
  have he := contrEquiv1_symm_val (dims wf) K rfl rfl e
  funext a
  apply Fin.ext
  match a with
  | ⟨0, _⟩ => exact lhsIdx_row wf _ _
  | ⟨1, _⟩ => exact ((dims wf).lhsIdx_val_of_single rfl _ _).trans he

/-- The right index at result `(p, q)` and contraction position `e` is `(e, q)`. -/
theorem rhsIdx_eq (p : Fin M) (q : Fin N) (e : Fin K) :
    (dims wf).rhsIdx (ix2 p q) ((contrEquiv1 (dims wf) K rfl rfl).symm e) = ix2 e q := by
  have he := contrEquiv1_symm_val (dims wf) K rfl rfl e
  funext a
  apply Fin.ext
  match a with
  | ⟨0, _⟩ => exact ((dims wf).rhsIdx_val_of_single rfl _ _).trans he
  | ⟨1, _⟩ => exact rhsIdx_col wf _ _

/-- Entry `(p, q)` of the product into a zero accumulator: row `p` of `lhs` against column `q` of `rhs`. -/
theorem matmul_zero_apply {φ₁ φ₂ : FTy} (prec : Option ContractPrecision)
    (lhs : FVec Ideal (⟨2, ![M, K]⟩ : Shape) φ₁) (rhs : FVec Ideal (⟨2, ![K, N]⟩ : Shape) φ₂) (p : Fin M) (q : Fin N) :
    FloatOps.matmul (dims wf) prec lhs rhs (constant (F := Ideal) (⟨2, ![M, N]⟩ : Shape) .f32 0x00000000#32) (ix2 p q)
      = ∑ e : Fin K, lhs (ix2 p e) * rhs (ix2 e q) := by
  rw [Ideal.matmul_constant_zero_apply, ← Equiv.sum_comp (contrEquiv1 (dims wf) K rfl rfl).symm]
  refine Finset.sum_congr rfl fun e _ => ?_
  rw [lhsIdx_eq wf p q e, rhsIdx_eq wf p q e]

end Cert.LibMatmulNN

end
-- ==== Proof.Payload.lean ====
/-
  The kernel body's arithmetic read at one entry of the output tile, at the exact extended reals.

  One trip of the reduction loop adds to the carried tile, at `(r, q)`, the sum over the 128 lanes `c` of the chunk of
  `w (q, c) · exp (p (q, c) · l (r, c))`: the chunk of logarithms `l` is repeated along the tile's columns, the chunks of
  exponents `p` and weights `w` along its rows, and the lane axis is summed. After the loop the tile receives the two
  matrix products — `x` against the masked linear weights and `x · x` against the masked quadratic weights, both stored
  transposed, so entry `(r, q)` sums `x (r, e) · a (e, q)` over the 512 input features `e` — and the bias row.
-/
import proofs.«150817_j26551487824340_2_alg».proof.Proof.Gen.KernelIdeal.Skeleton
import proofs.«150817_j26551487824340_2_alg».proof.Proof.LibRank3Layout
import proofs.«150817_j26551487824340_2_alg».proof.Proof.LibRowAxis
import proofs.«150817_j26551487824340_2_alg».proof.Proof.LibMatmulNN
import Idealize.ShloMosaic.Lib.ValueLayout
import Idealize.ShloMosaic.Lib.Pipeline.Value

noncomputable section

namespace Cert.QuasiPoly.Ker

open Cert.KernelIdeal Cert.KernelIdeal.Gen Idealize.ShloMosaic Idealize.ShloMosaic.ValueIdx
open scoped BigOperators

/-- The exponential of an array, read at an index. -/
theorem exp_apply {s : Shape} {φ : FTy} (a : FVec Ideal s φ) (i : s.Idx) : exp a i = Ideal.exp (a i) := rfl

/-- One trip's yield at `(r, q)`: the carried entry plus the chunk's lane sum. -/
theorem pay2_apply (acc : FVec Ideal S128x128 .f32) (v23 v26 v28 : Vec Ideal S128x128 .f32) (r q : Fin 128) :
    k0_pay2 (F := Ideal) acc v23 v26 v28 (ix2 r q)
      = acc (ix2 r q) + ∑ c : Fin 128, v28 (ix2 q c) * Ideal.exp (v26 (ix2 q c) * v23 (ix2 r c)) := by
  unfold k0_pay2
  refine (addf_apply _ _ _).trans ?_
  refine congrArg (acc (ix2 r q) + ·) ?_
  refine (Cert.LibRank3.sum_lane_apply _ _ _ _ _ r q).trans ?_
  refine Finset.sum_congr rfl fun c _ => ?_
  refine (mulf_apply _ _ _).trans ?_
  refine congrArg₂ (· * ·) ?_ ?_
  · refine (Cert.LibRank3.broadcastTo_group_apply _ _ r q c).trans ?_
    refine (shapeCast_ab_1ab_apply _ _ _ q c).trans ?_
    exact congrFun (shapeCast_self _ _) _
  · refine (exp_apply _ _).trans ?_
    refine congrArg Ideal.exp ?_
    refine (mulf_apply _ _ _).trans ?_
    refine congrArg₂ (· * ·) ?_ ?_
    · refine (Cert.LibRank3.broadcastTo_group_apply _ _ r q c).trans ?_
      exact shapeCast_ab_1ab_apply _ _ _ q c
    · refine (Cert.LibRowAxis.broadcastTo_a1d_abd_apply _ _ r q c).trans ?_
      refine (Cert.LibRowAxis.shapeCast_ad_a1d_apply _ _ r _ c).trans ?_
      exact congrFun (shapeCast_self _ _) _

/-- The stored tile at `(r, q)`: the loop's result, the two products and the bias. -/
theorem pay3_apply (v2 : FVec Ideal S128x128 .f32) (v3 : Vec Ideal S128x512 .f32) (v7 v10 : Vec Ideal S512x128 .bf16)
    (v15 : Vec Ideal S1x128 .f32) (r q : Fin 128) :
    k0_pay3 (F := Ideal) v2 v3 v7 v10 v15 (ix2 r q)
      = ((v2 (ix2 r q) + ∑ e : Fin 512, v3 (ix2 r e) * v7 (ix2 e q))
          + ∑ e : Fin 512, (v3 (ix2 r e) * v3 (ix2 r e)) * v10 (ix2 e q)) + v15 (ix2 (0 : Fin 1) q) := by
  unfold k0_pay3
  refine (addf_apply _ _ _).trans ?_
  refine congrArg₂ (· + ·) ?_ ?_
  · refine (addf_apply _ _ _).trans ?_
    refine congrArg₂ (· + ·) ?_ ?_
    · refine (addf_apply _ _ _).trans ?_
      refine congrArg (v2 (ix2 r q) + ·) ?_
      refine (Cert.LibMatmulNN.matmul_zero_apply dot_S128x512_S512x128_S128x128_1_0_0_1_n_n_wf none _ _ r q).trans ?_
      refine Finset.sum_congr rfl fun e _ => ?_
      refine congrArg (v3 (ix2 r e) * ·) ?_
      exact congrFun (shapeCast_self _ _) _
    · refine (Cert.LibMatmulNN.matmul_zero_apply dot_S128x512_S512x128_S128x128_1_0_0_1_n_n_wf none _ _ r q).trans ?_
      refine Finset.sum_congr rfl fun e _ => ?_
      refine congrArg ((v3 (ix2 r e) * v3 (ix2 r e)) * ·) ?_
      exact congrFun (shapeCast_self _ _) _
  · refine (broadcastTo_1b_ab_apply _ _ r q).trans ?_
    exact congrFun (shapeCast_self _ _) _

end Cert.QuasiPoly.Ker

end
-- ==== Proof.Block.lean ====
/-
  What one grid point writes into its output tile, entry by entry, from the blocks its windows stage.

  The reduction loop carries a 128 × 128 tile through four trips; trip `k` reads lanes `128 k … 128 k + 127` of the
  staged blocks of logarithms, exponents and power-term weights and adds their lane sum (Payload). Unrolling the four
  trips and joining the four chunk sums (Algebra) gives, at entry `(r, q)`, the sum over all 512 input features of
  `w (q, j) · exp (p (q, j) · l (r, j))`; the stored tile adds the two matrix products and the bias row.
-/
import proofs.«150817_j26551487824340_2_alg».proof.Proof.Gen.KernelIdeal.Frame
import proofs.«150817_j26551487824340_2_alg».proof.Proof.Payload
import proofs.«150817_j26551487824340_2_alg».proof.Proof.Algebra
import Idealize.ShloMosaic.Lib.WholeRead

set_option maxRecDepth 16384

noncomputable section

namespace Cert.QuasiPoly.Ker

open Cert.KernelIdeal Cert.KernelIdeal.Gen Idealize.ShloMosaic Idealize.ShloMosaic.TcCoe Idealize.ShloMosaic.ValueIdx
open Idealize.SL Idealize.SL.Sem
open scoped BigOperators

/-- The loop makes four trips. -/
theorem trips_eq : k0_t1_loop.trips = 4 := by decide +kernel

theorem trip_lt (k : Fin k0_t1_loop.trips) : k.val < 4 := trips_eq ▸ k.isLt

/-- A chunk load through a whole staging memref held at the contents that read `X`: entry `(r, c)` of trip `k`'s
    chunk is `X (r, 128 k + c)`. -/
theorem chunk_read (arg : Memref sig .tc .vmem S128x512 .f32) (harg : arg.IsWhole) (X : Vec Ideal S128x512 .f32)
    (k : Fin k0_t1_loop.trips) (r c : Fin 128) :
    (View.readAt (Elt Ideal) arg.view (Rect.unit (s := S128x512) (k0_off1 k) S128x128.size (k0_off1_inb k)).toLoadRect (harg.unread X)) (ix2 r c) = X (ix2 r (lane k.val (trip_lt k) c)) := by
  rw [Memref.IsWhole.readAt_unread]
  refine congrArg X (funext fun a => Fin.ext ?_)
  match a with
  | ⟨0, _⟩ =>
    rw [LoadRect.idx_apply]
    simp [Rect.unit, k0_off1_eq k]
  | ⟨1, _⟩ =>
    rw [LoadRect.idx_apply]
    simp [Rect.unit, k0_off1_eq k, lane]

/-- One trip's yield is the body's arithmetic on the three chunks it loads. -/
theorem trip_eq (𝒱 : Variants) (c : Dev nD) (bd : Option 𝒱.V) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S1x128 .f32) (harg8 : arg8.IsWhole) (arg9 : Memref sig .tc .vmem S128x128 .f32) (harg9 : arg9.IsWhole) (X_arg3 : BufTy.Contents (Elt Ideal) arg3.view.ty) (X_arg4 : BufTy.Contents (Elt Ideal) arg4.view.ty) (X_arg5 : BufTy.Contents (Elt Ideal) arg5.view.ty) (k : Fin k0_t1_loop.trips) (acc : FVec Ideal S128x128 .f32) :
    tripR_k0_t1 (F := Ideal) 𝒱 c bd i arg2 harg2 arg3 harg3 arg4 harg4 arg5 harg5 arg6 harg6 arg7 harg7 arg8 harg8 arg9 harg9 X_arg3 X_arg4 X_arg5 k acc
      = k0_pay2 (F := Ideal) acc (View.readAt (Elt Ideal) arg3.view (Rect.unit (s := S128x512) (k0_off1 k) S128x128.size (k0_off1_inb k)).toLoadRect X_arg3) (View.readAt (Elt Ideal) arg4.view (Rect.unit (s := S128x512) (k0_off1 k) S128x128.size (k0_off1_inb k)).toLoadRect X_arg4) (View.readAt (Elt Ideal) arg5.view (Rect.unit (s := S128x512) (k0_off1 k) S128x128.size (k0_off1_inb k)).toLoadRect X_arg5) := by
  unfold tripR_k0_t1 trip_k0_t1
  rfl

/-- The power term of input feature `j` at entry `(r, q)` of the tile, from the staged blocks. -/
def expTerm (x1 x2 x3 : Vec Ideal S128x512 .f32) (r q : Fin 128) (j : Fin 512) : EReal :=
  x3 (ix2 q j) * Ideal.exp (x2 (ix2 q j) * x1 (ix2 r j))

/-- One more trip adds its chunk's lane sum to the carried entry. -/
theorem carried_step (𝒱 : Variants) (c : Dev nD) (bd : Option 𝒱.V) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S1x128 .f32) (harg8 : arg8.IsWhole) (arg9 : Memref sig .tc .vmem S128x128 .f32) (harg9 : arg9.IsWhole)
    (x1 x2 x3 : Vec Ideal S128x512 .f32) (init : FVec Ideal S128x128 .f32) (n : ℕ) (hn : n < k0_t1_loop.trips) (r q : Fin 128) :
    st_k0_t1 (F := Ideal) 𝒱 c bd i arg2 harg2 arg3 harg3 arg4 harg4 arg5 harg5 arg6 harg6 arg7 harg7 arg8 harg8 arg9 harg9 (harg3.unread x1) (harg4.unread x2) (harg5.unread x3) init (n + 1) (ix2 r q)
      = st_k0_t1 (F := Ideal) 𝒱 c bd i arg2 harg2 arg3 harg3 arg4 harg4 arg5 harg5 arg6 harg6 arg7 harg7 arg8 harg8 arg9 harg9 (harg3.unread x1) (harg4.unread x2) (harg5.unread x3) init n (ix2 r q)
        + ∑ c : Fin 128, expTerm x1 x2 x3 r q (lane n (trips_eq ▸ hn) c) := by
  have hs := st_k0_t1_succ (F := Ideal) 𝒱 c bd i arg2 harg2 arg3 harg3 arg4 harg4 arg5 harg5 arg6 harg6 arg7 harg7 arg8 harg8 arg9 harg9 (harg3.unread x1) (harg4.unread x2) (harg5.unread x3) init ⟨n, hn⟩
  rw [show (n + 1) = (⟨n, hn⟩ : Fin k0_t1_loop.trips).val + 1 from rfl, hs, trip_eq, pay2_apply]
  refine congrArg (_ + ·) (Finset.sum_congr rfl fun c _ => ?_)
  rw [chunk_read, chunk_read, chunk_read]
  rfl

/-- After the four trips the carried entry is the start value plus the sum over all 512 input features. -/
theorem carried_apply (𝒱 : Variants) (c : Dev nD) (bd : Option 𝒱.V) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S1x128 .f32) (harg8 : arg8.IsWhole) (arg9 : Memref sig .tc .vmem S128x128 .f32) (harg9 : arg9.IsWhole)
    (x1 x2 x3 : Vec Ideal S128x512 .f32) (init : FVec Ideal S128x128 .f32) (r q : Fin 128) :
    st_k0_t1 (F := Ideal) 𝒱 c bd i arg2 harg2 arg3 harg3 arg4 harg4 arg5 harg5 arg6 harg6 arg7 harg7 arg8 harg8 arg9 harg9 (harg3.unread x1) (harg4.unread x2) (harg5.unread x3) init 4 (ix2 r q)
      = init (ix2 r q) + ∑ j : Fin 512, expTerm x1 x2 x3 r q j := by
  have h0 : 0 < k0_t1_loop.trips := by rw [trips_eq]; decide
  have h1 : 1 < k0_t1_loop.trips := by rw [trips_eq]; decide
  have h2 : 2 < k0_t1_loop.trips := by rw [trips_eq]; decide
  have h3 : 3 < k0_t1_loop.trips := by rw [trips_eq]; decide
  let S : ℕ → EReal := fun n => st_k0_t1 (F := Ideal) 𝒱 c bd i arg2 harg2 arg3 harg3 arg4 harg4 arg5 harg5 arg6 harg6 arg7 harg7 arg8 harg8 arg9 harg9 (harg3.unread x1) (harg4.unread x2) (harg5.unread x3) init n (ix2 r q)
  have s4 : S 4 = S 3 + _ := carried_step 𝒱 c bd i arg2 harg2 arg3 harg3 arg4 harg4 arg5 harg5 arg6 harg6 arg7 harg7 arg8 harg8 arg9 harg9 x1 x2 x3 init 3 h3 r q
  have s3 : S 3 = S 2 + _ := carried_step 𝒱 c bd i arg2 harg2 arg3 harg3 arg4 harg4 arg5 harg5 arg6 harg6 arg7 harg7 arg8 harg8 arg9 harg9 x1 x2 x3 init 2 h2 r q
  have s2 : S 2 = S 1 + _ := carried_step 𝒱 c bd i arg2 harg2 arg3 harg3 arg4 harg4 arg5 harg5 arg6 harg6 arg7 harg7 arg8 harg8 arg9 harg9 x1 x2 x3 init 1 h1 r q
  have s1 : S 1 = S 0 + _ := carried_step 𝒱 c bd i arg2 harg2 arg3 harg3 arg4 harg4 arg5 harg5 arg6 harg6 arg7 harg7 arg8 harg8 arg9 harg9 x1 x2 x3 init 0 h0 r q
  have s0 : S 0 = init (ix2 r q) := rfl
  show S 4 = _
  rw [s4, s3, s2, s1, s0, sum_chunks (expTerm x1 x2 x3 r q)]
  simp only [add_assoc]

end Cert.QuasiPoly.Ker

end
-- ==== Proof.Tile.lean ====
/-
  The output tile one grid point stores, entry by entry, from the blocks its windows stage.

  The point's one store covers the whole 128 × 128 tile; its payload is the loop's result plus the two matrix products
  and the bias row. The loop starts from the zero tile, so at entry `(r, q)` the stored value is the sum of the power
  terms over all 512 input features, plus the linear and the quadratic sums, plus the bias of column `q`.
-/
import proofs.«150817_j26551487824340_2_alg».proof.Proof.Block
import Idealize.ShloMosaic.Lib.WholeRead

set_option maxRecDepth 16384

noncomputable section

namespace Cert.QuasiPoly.Ker

open Cert.KernelIdeal Cert.KernelIdeal.Gen Idealize.ShloMosaic Idealize.ShloMosaic.TcCoe Idealize.ShloMosaic.ValueIdx
open Idealize.SL Idealize.SL.Sem
open scoped BigOperators

/-- The zero offsets of a whole-block access, however they are spelt. -/
theorem zero_offsets : (![0, 0] : Fin 2 → Nat) = fun _ => 0 := funext fun a => by fin_cases a <;> rfl

/-- Entry `(r, q)` of the tile a grid point stores, from its input blocks: logarithms `x1`, exponents `x2`, power-term
    weights `x3`, inputs `x0`, transposed masked weights `x4` and `x5`, bias row `x6`. -/
theorem tile_apply (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S1x128 .f32) (harg8 : arg8.IsWhole) (arg9 : Memref sig .tc .vmem S128x128 .f32) (harg9 : arg9.IsWhole)
    (x0 : Vec Ideal S128x512 .f32) (x1 : Vec Ideal S128x512 .f32) (x2 : Vec Ideal S128x512 .f32) (x3 : Vec Ideal S128x512 .f32) (x4 : Vec Ideal S512x128 .bf16) (x5 : Vec Ideal S512x128 .bf16) (x6 : Vec Ideal S1x128 .f32) (r q : Fin 128) :
    out0_A_7 (F := Ideal) c i arg2 harg2 arg3 harg3 arg4 harg4 arg5 harg5 arg6 harg6 arg7 harg7 arg8 harg8 arg9 harg9 x0 x1 x2 x3 x4 x5 x6 (ix2 r q)
      = (((∑ j : Fin 512, expTerm x1 x2 x3 r q j) + ∑ e : Fin 512, x0 (ix2 r e) * x4 (ix2 e q))
          + ∑ e : Fin 512, (x0 (ix2 r e) * x0 (ix2 r e)) * x5 (ix2 e q)) + x6 (ix2 (0 : Fin 1) q) := by
  unfold out0_A_7
  rw [View.read_writes_eq_canon _ _ _ (cover0_A_7 c i arg2 harg2 arg3 harg3 arg4 harg4 arg5 harg5 arg6 harg6 arg7 harg7 arg8 harg8 arg9 harg9 x0 x1 x2 x3 x4 x5 x6)]
  unfold kernelRun0_A
  dsimp only
  rw [View.canon_unit_zero zero_offsets]
  simp only [View.readAt_eq_ld, Memref.IsWhole.read_unread, View.ld_unit_zero (S := S128x512) zero_offsets,
    View.ld_unit_zero (S := S512x128) zero_offsets, View.ld_unit_zero (S := S1x128) zero_offsets]
  rw [pay3_apply, show Scf.trips (0#32) (Scalar.addi 0#32 4#32) 1#32 = 4 from trips_eq, carried_apply]
  refine congrArg (· + x6 _) (congrArg (· + _) (congrArg (· + _) ?_))
  show Ideal.ofBits .f32 0x00000000#32 + _ = _
  rw [Ideal.ofBits_zero_f32, zero_add]

end Cert.QuasiPoly.Ker

end
-- ==== Proof.Final.lean ====
/-
  From tiles to the whole result array.

  The grid has 4 × 4 points; point `(bi, oi)` stages rows `128 bi …` of the inputs and of their logarithms, rows
  `128 oi …` of the exponents and of the power-term weights, columns `128 oi …` of the two transposed masked weight
  matrices and of the bias row, and writes tile `(bi, oi)` of the result. So the tile's entry `(r, q)` (Tile) is entry
  `(128 bi + r, 128 oi + q)` of the kernel's form of the layer (Algebra) over the arrays as the region finds them; the
  sixteen tiles cover the result, which therefore ends holding that form everywhere.
-/
import proofs.«150817_j26551487824340_2_alg».proof.Proof.Gen.KernelIdeal.Value
import proofs.«150817_j26551487824340_2_alg».proof.Proof.Tile

set_option maxRecDepth 16384

noncomputable section

namespace Cert.QuasiPoly.Ker

open Cert.KernelIdeal Cert.KernelIdeal.Gen Idealize.ShloMosaic Idealize.ShloMosaic.TcCoe Idealize.ShloMosaic.ValueIdx
open Idealize.SL Idealize.SL.Sem
open Idealize.ShloMosaic.Pipeline (Dat)
open scoped BigOperators

variable (m : (ℓ : Loc nD τ sig) → Buf (Elt Ideal) ℓ)

/-- The printed index maps, decided over the sixteen grid points: which block of its array each window stages, relative
    to the output tile's block `(bi, oi)`. -/
theorem idx_facts : ∀ t : Fin cfg0.N,
    win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_2.index t (0 : Fin 2) = win0_7.index t (1 : Fin 2) ∧ win0_2.index t (1 : Fin 2) = 0
    ∧ win0_3.index t (0 : Fin 2) = win0_7.index t (1 : Fin 2) ∧ win0_3.index t (1 : Fin 2) = 0
    ∧ win0_4.index t (0 : Fin 2) = 0 ∧ win0_4.index t (1 : Fin 2) = win0_7.index t (1 : Fin 2)
    ∧ win0_5.index t (0 : Fin 2) = 0 ∧ win0_5.index t (1 : Fin 2) = win0_7.index t (1 : Fin 2)
    ∧ win0_6.index t (0 : Fin 2) = 0 ∧ win0_6.index t (1 : Fin 2) = win0_7.index t (1 : Fin 2)
    ∧ win0_7.index t (0 : Fin 2) ≤ 3 ∧ win0_7.index t (1 : Fin 2) ≤ 3 :=
  (by decide +kernel : ∀ t : Fin grid0.N, _)

/-- Every tile position is some grid point's. -/
theorem idx_onto : ∀ (q0 q1 : Fin 4), ∃ t : Fin cfg0.N, win0_7.index t = ![q0.val, q1.val] :=
  (by decide +kernel : ∀ (q0 q1 : Fin 4), ∃ t : Fin grid0.N, win0_7.index t = ![q0.val, q1.val])

/-! ## Each staged block read where the tile's position says -/

/-- The input block: entry `(r, e)` is the input array at row `128 bi + r`. -/
theorem blk_x (c : Dev nD) (t : Fin cfg0.N) (r : Fin 128) (e : Fin 512) (k : S512x512.Idx)
    (h0 : (k 0).val = win0_7.index t (0 : Fin 2) * 128 + r.val) (h1 : (k 1).val = e.val) :
    (iblk m c 0 t : Vec Ideal S128x512 .f32) (ix2 r e) = (V m c main_arg0 : S512x512.Idx → EReal) k := by
  obtain ⟨e0, e1, -⟩ := idx_facts t
  unfold iblk
  rw [View.read_apply]
  show V m c main_arg0 _ = V m c main_arg0 k
  refine congrArg (V m c main_arg0 : S512x512.Idx → EReal) (funext fun a => Fin.ext ?_)
  match a with
  | ⟨0, _⟩ => show win0_0.index t (0 : Fin 2) * 128 + 1 * r.val = (k 0).val; rw [e0, h0]; omega
  | ⟨1, _⟩ => show win0_0.index t (1 : Fin 2) * 512 + 1 * e.val = (k 1).val; rw [e1, h1]; omega

/-- The block of logarithms: entry `(r, e)` is the array of logarithms at row `128 bi + r`. -/
theorem blk_l (c : Dev nD) (t : Fin cfg0.N) (r : Fin 128) (e : Fin 512) (k : S512x512.Idx)
    (h0 : (k 0).val = win0_7.index t (0 : Fin 2) * 128 + r.val) (h1 : (k 1).val = e.val) :
    (iblk m c 1 t : Vec Ideal S128x512 .f32) (ix2 r e) = (V m c main_v0 : S512x512.Idx → EReal) k := by
  obtain ⟨-, -, e0, e1, -⟩ := idx_facts t
  unfold iblk
  rw [View.read_apply]
  show V m c main_v0 _ = V m c main_v0 k
  refine congrArg (V m c main_v0 : S512x512.Idx → EReal) (funext fun a => Fin.ext ?_)
  match a with
  | ⟨0, _⟩ => show win0_1.index t (0 : Fin 2) * 128 + 1 * r.val = (k 0).val; rw [e0, h0]; omega
  | ⟨1, _⟩ => show win0_1.index t (1 : Fin 2) * 512 + 1 * e.val = (k 1).val; rw [e1, h1]; omega

/-- The block of exponents: entry `(q, e)` is the exponent array at row `128 oi + q`. -/
theorem blk_p (c : Dev nD) (t : Fin cfg0.N) (q : Fin 128) (e : Fin 512) (k : S512x512.Idx)
    (h0 : (k 0).val = win0_7.index t (1 : Fin 2) * 128 + q.val) (h1 : (k 1).val = e.val) :
    (iblk m c 2 t : Vec Ideal S128x512 .f32) (ix2 q e) = (V m c main_arg1 : S512x512.Idx → EReal) k := by
  obtain ⟨-, -, -, -, e0, e1, -⟩ := idx_facts t
  unfold iblk
  rw [View.read_apply]
  show V m c main_arg1 _ = V m c main_arg1 k
  refine congrArg (V m c main_arg1 : S512x512.Idx → EReal) (funext fun a => Fin.ext ?_)
  match a with
  | ⟨0, _⟩ => show win0_2.index t (0 : Fin 2) * 128 + 1 * q.val = (k 0).val; rw [e0, h0]; omega
  | ⟨1, _⟩ => show win0_2.index t (1 : Fin 2) * 512 + 1 * e.val = (k 1).val; rw [e1, h1]; omega

/-- The block of power-term weights: entry `(q, e)` is that array at row `128 oi + q`. -/
theorem blk_w (c : Dev nD) (t : Fin cfg0.N) (q : Fin 128) (e : Fin 512) (k : S512x512.Idx)
    (h0 : (k 0).val = win0_7.index t (1 : Fin 2) * 128 + q.val) (h1 : (k 1).val = e.val) :
    (iblk m c 3 t : Vec Ideal S128x512 .f32) (ix2 q e) = (V m c main_v13 : S512x512.Idx → EReal) k := by
  obtain ⟨-, -, -, -, -, -, e0, e1, -⟩ := idx_facts t
  unfold iblk
  rw [View.read_apply]
  show V m c main_v13 _ = V m c main_v13 k
  refine congrArg (V m c main_v13 : S512x512.Idx → EReal) (funext fun a => Fin.ext ?_)
  match a with
  | ⟨0, _⟩ => show win0_3.index t (0 : Fin 2) * 128 + 1 * q.val = (k 0).val; rw [e0, h0]; omega
  | ⟨1, _⟩ => show win0_3.index t (1 : Fin 2) * 512 + 1 * e.val = (k 1).val; rw [e1, h1]; omega

/-- The block of transposed masked linear weights: entry `(e, q)` is that array at column `128 oi + q`. -/
theorem blk_a1 (c : Dev nD) (t : Fin cfg0.N) (e : Fin 512) (q : Fin 128) (k : S512x512.Idx)
    (h0 : (k 0).val = e.val) (h1 : (k 1).val = win0_7.index t (1 : Fin 2) * 128 + q.val) :
    (iblk m c 4 t : Vec Ideal S512x128 .bf16) (ix2 e q) = (V m c main_v20 : S512x512.Idx → EReal) k := by
  obtain ⟨-, -, -, -, -, -, -, -, e0, e1, -⟩ := idx_facts t
  unfold iblk
  rw [View.read_apply]
  show V m c main_v20 _ = V m c main_v20 k
  refine congrArg (V m c main_v20 : S512x512.Idx → EReal) (funext fun a => Fin.ext ?_)
  match a with
  | ⟨0, _⟩ => show win0_4.index t (0 : Fin 2) * 512 + 1 * e.val = (k 0).val; rw [e0, h0]; omega
  | ⟨1, _⟩ => show win0_4.index t (1 : Fin 2) * 128 + 1 * q.val = (k 1).val; rw [e1, h1]; omega

/-- The block of transposed masked quadratic weights: entry `(e, q)` is that array at column `128 oi + q`. -/
theorem blk_a2 (c : Dev nD) (t : Fin cfg0.N) (e : Fin 512) (q : Fin 128) (k : S512x512.Idx)
    (h0 : (k 0).val = e.val) (h1 : (k 1).val = win0_7.index t (1 : Fin 2) * 128 + q.val) :
    (iblk m c 5 t : Vec Ideal S512x128 .bf16) (ix2 e q) = (V m c main_v23 : S512x512.Idx → EReal) k := by
  obtain ⟨-, -, -, -, -, -, -, -, -, -, e0, e1, -⟩ := idx_facts t
  unfold iblk
  rw [View.read_apply]
  show V m c main_v23 _ = V m c main_v23 k
  refine congrArg (V m c main_v23 : S512x512.Idx → EReal) (funext fun a => Fin.ext ?_)
  match a with
  | ⟨0, _⟩ => show win0_5.index t (0 : Fin 2) * 512 + 1 * e.val = (k 0).val; rw [e0, h0]; omega
  | ⟨1, _⟩ => show win0_5.index t (1 : Fin 2) * 128 + 1 * q.val = (k 1).val; rw [e1, h1]; omega

/-- The block of the bias row: entry `(0, q)` is the row at column `128 oi + q`. -/
theorem blk_b (c : Dev nD) (t : Fin cfg0.N) (u : Fin 1) (q : Fin 128) (k : S1x512.Idx)
    (h0 : (k 0).val = 0) (h1 : (k 1).val = win0_7.index t (1 : Fin 2) * 128 + q.val) :
    (iblk m c 6 t : Vec Ideal S1x128 .f32) (ix2 u q) = (V m c main_v24 : S1x512.Idx → EReal) k := by
  obtain ⟨-, -, -, -, -, -, -, -, -, -, -, -, e0, e1, -⟩ := idx_facts t
  have hu : u.val = 0 := by have := u.isLt; omega
  unfold iblk
  rw [View.read_apply]
  show V m c main_v24 _ = V m c main_v24 k
  refine congrArg (V m c main_v24 : S1x512.Idx → EReal) (funext fun a => Fin.ext ?_)
  match a with
  | ⟨0, _⟩ => show win0_6.index t (0 : Fin 2) * 1 + 1 * u.val = (k 0).val; rw [e0, h0, hu]
  | ⟨1, _⟩ => show win0_6.index t (1 : Fin 2) * 128 + 1 * q.val = (k 1).val; rw [e1, h1]; omega

/-! ## What a point writes back, and the whole array -/

/-- The kernel's form of the layer over the arrays as the region finds them. -/
abbrev regionForm (c : Dev nD) : S512x512.Idx → EReal :=
  fusedArr (V m c main_arg0 : S512x512.Idx → EReal) (V m c main_v0 : S512x512.Idx → EReal)
    (V m c main_arg1 : S512x512.Idx → EReal) (V m c main_v13 : S512x512.Idx → EReal)
    (V m c main_v20 : S512x512.Idx → EReal) (V m c main_v23 : S512x512.Idx → EReal) (V m c main_v24 : S1x512.Idx → EReal)

/-- What point `t` writes back is tile `t` of the kernel's form. -/
theorem flushed_eq (c : Dev nD) (t : Fin cfg0.N) :
    (dats m 0 c).flushed 7 t = ((cfg0.win 7).blk t).view.read (Elt Ideal) (regionForm m c) := by
  rw [Cert.KernelIdeal.Value.flushed7_A]
  obtain ⟨-, -, -, -, -, -, -, -, -, -, -, -, -, -, b0, b1⟩ := idx_facts t
  refine funext fun (y : S128x128.Idx) => ?_
  obtain ⟨r, q, rfl⟩ : ∃ (r q : Fin 128), y = ix2 r q := ⟨y 0, y 1, eq_ix2 y⟩
  show out0_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t) (iblk m c 6 t) (ix2 r q) = _
  refine (tile_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t) (iblk m c 6 t) r q).trans ?_
  have hr : r.val < 128 := r.isLt
  have hq : q.val < 128 := q.isLt
  obtain ⟨B, hB⟩ : ∃ B : Fin 512, B.val = win0_7.index t (0 : Fin 2) * 128 + r.val := ⟨⟨_, by omega⟩, rfl⟩
  obtain ⟨O, hO⟩ : ∃ O : Fin 512, O.val = win0_7.index t (1 : Fin 2) * 128 + q.val := ⟨⟨_, by omega⟩, rfl⟩
  have he : ((cfg0.win 7).blk t).view.emb (ix2 r q) = ix2 B O := by
    funext a; apply Fin.ext
    match a with
    | ⟨0, _⟩ => show win0_7.index t (0 : Fin 2) * 128 + 1 * r.val = B.val; omega
    | ⟨1, _⟩ => show win0_7.index t (1 : Fin 2) * 128 + 1 * q.val = O.val; omega
  rw [View.read_apply, he]
  show _ = fused _ _ _ _ _ _ _ B O
  unfold fused expTerm
  refine congrArg₂ (· + ·) (congrArg₂ (· + ·) (congrArg₂ (· + ·) ?_ ?_) ?_) ?_
  · refine Finset.sum_congr rfl fun j _ => ?_
    rw [blk_w m c t q j (ix2 O j) hO rfl, blk_p m c t q j (ix2 O j) hO rfl, blk_l m c t r j (ix2 B j) hB rfl]
  · refine Finset.sum_congr rfl fun e _ => ?_
    rw [blk_x m c t r e (ix2 B e) hB rfl, blk_a1 m c t e q (ix2 e O) rfl hO]
  · refine Finset.sum_congr rfl fun e _ => ?_
    rw [blk_x m c t r e (ix2 B e) hB rfl, blk_a2 m c t e q (ix2 e O) rfl hO]
  · exact blk_b m c t 0 q (ix2 (0 : Fin 1) O) rfl hO

/-- An index of the result is in point `t`'s tile iff each coordinate is in the tile's range. -/
theorem mem_tile (t : Fin cfg0.N) (i : S512x512.Idx) :
    i ∈ ((cfg0.win 7).blk t).view.set ↔ ∀ a : Fin 2, win0_7.index t a * S128x128.size a ≤ (i a).val
      ∧ (i a).val < win0_7.index t a * S128x128.size a + S128x128.size a := by
  show i ∈ ((View.whole main_v25).slice (win0_7.rect t)).set ↔ _
  rw [View.set_slice_whole, Rect.mem_set_unit]
  exact Iff.rfl

/-- The sixteen tiles cover the result: index `(b, o)` is in the tile of point `(b / 128, o / 128)`. -/
theorem tiles_cover (i : S512x512.Idx) :
    ∃ t : Fin cfg0.N, (cfg0.win 7).flush t = true ∧ i ∈ ((cfg0.win 7).blk t).view.set := by
  have hi0 : (i 0).val < 512 := (i 0).isLt
  have hi1 : (i 1).val < 512 := (i 1).isLt
  obtain ⟨t, ht⟩ := idx_onto ⟨(i 0).val / 128, by omega⟩ ⟨(i 1).val / 128, by omega⟩
  have q0 : win0_7.index t (0 : Fin 2) = (i 0).val / 128 := congrFun ht 0
  have q1 : win0_7.index t (1 : Fin 2) = (i 1).val / 128 := congrFun ht 1
  refine ⟨t, flush0_7 t, ?_⟩
  rw [mem_tile]
  intro a
  match a with
  | ⟨0, _⟩ =>
    show win0_7.index t (0 : Fin 2) * 128 ≤ (i 0).val ∧ (i 0).val < win0_7.index t (0 : Fin 2) * 128 + 128
    omega
  | ⟨1, _⟩ =>
    show win0_7.index t (1 : Fin 2) * 128 ≤ (i 1).val ∧ (i 1).val < win0_7.index t (1 : Fin 2) * 128 + 128
    omega

/-- The result array after the run is the kernel's form of the layer over the arrays as the region finds them. -/
theorem final (c : Dev nD) : (dats m 0 c).arrAt 7 cfg0.N = regionForm m c :=
  (dats m 0 c).arrAt_eq_of_cover 7 (regionForm m c) (fun t _ => flushed_eq m c t) tiles_cover

end Cert.QuasiPoly.Ker

end
-- ==== Proof.lean ====
/-
  A layer of polynomial synapses with a real-exponent power term, against its plain reference, at the exact extended reals.

  For a batch row `b` and an output feature `o` both programs compute
      sum over the input features j of  ( w0(o,j) · x(b,j) ^ p(o,j) + m1(o,j)·w1(o,j) · x(b,j) + m2(o,j)·w2(o,j) · x(b,j)² )  + bias(o),
  where the 0/1 masks `m1, m2` are computed from `floor (p)` by the same host operations in both programs.
  The reference sums the three terms of each synapse together and raises `x` to the power `p` directly. The kernel tiles
  the result 4 × 4, sums the power terms in a loop of four chunks of 128 input features as `w0 · exp (p · log x)` with
  the logarithm taken once on the host, and adds the linear and quadratic terms as two matrix products against the
  masked weights stored transposed.

  The two agree because: a change of float format is the identity and a matrix product is a plain sum of products
  here; addition of extended reals is commutative and associative, so the sum may be split by kind of term and by
  chunk; multiplication commutes; and `x ^ p = exp (p · log x)` for a positive finite `x` and a finite `p`. The last
  law is the only place the precondition (every input finite, `x > 0`) is used: for `x ≤ 0` the logarithm is `-∞`
  while the power keeps a finite value, and the two programs differ.

  The modules: Spec (the layer as one function), PowLaw and Algebra (the laws), RefSpec (the reference is the layer),
  PreFacts (the precondition read pointwise), Payload, Block, Tile (the kernel body at an entry of a tile), HostSide
  (the arrays the host prepares), Final (the tiles cover the result). The frames and the two runs are the generated ones.
-/
import proofs.«150817_j26551487824340_2_alg».proof.Defs
import proofs.«150817_j26551487824340_2_alg».proof.Proof.Gen.Kernel
import proofs.«150817_j26551487824340_2_alg».proof.Proof.Gen.Kernel.Frame
import proofs.«150817_j26551487824340_2_alg».proof.Proof.Gen.KernelIdeal
import proofs.«150817_j26551487824340_2_alg».proof.Proof.Gen.KernelIdeal.Frame
import proofs.«150817_j26551487824340_2_alg».proof.Proof.Gen.KernelIdeal.Value
import proofs.«150817_j26551487824340_2_alg».proof.Proof.Gen.ReferenceIdeal
import proofs.«150817_j26551487824340_2_alg».proof.Proof.Gen.ReferenceIdeal.Run
import proofs.«150817_j26551487824340_2_alg».proof.Proof.Gen.ReferenceIdeal.Read
import proofs.«150817_j26551487824340_2_alg».proof.Proof.Gen.Pre_finite_inputs
import proofs.«150817_j26551487824340_2_alg».proof.Proof.Algebra
import proofs.«150817_j26551487824340_2_alg».proof.Proof.RefSpec
import proofs.«150817_j26551487824340_2_alg».proof.Proof.PreFacts
import proofs.«150817_j26551487824340_2_alg».proof.Proof.HostSide
import proofs.«150817_j26551487824340_2_alg».proof.Proof.Final
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

/-- The word-level kernel runs and leaves its arguments as they were. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing of the kernel was rewritten to read it at the extended reals. -/
theorem preserves : Cert.preserves_Kernel_KernelIdeal := trivial

/-- Under the precondition the kernel's result array ends holding the layer of its arguments: the kernel's form of the
    layer over the arrays the host prepares (Final) is the layer itself (Algebra), the logarithms, transposed masked
    weights and bias row read back where they came from (HostSide), the inputs positive and finite and the exponents
    finite (PreFacts). -/
theorem kernel_value (m : (ℓ : Loc Cert.KernelIdeal.nD Cert.KernelIdeal.τ Cert.KernelIdeal.sig) → Buf (Elt Ideal) ℓ)
    (hpre : Cert.Pre_KernelIdeal m) (c : Dev Cert.KernelIdeal.nD) :
    (Cert.KernelIdeal.Gen.dats m 0 c).arrAt 7 Cert.KernelIdeal.cfg0.N = Cert.QuasiPoly.layerArr (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (Cert.ReferenceIdeal.Read.val_main_v13 (F := Ideal) (m ((c.tc : Thread Cert.KernelIdeal.nD Cert.KernelIdeal.τ).loc Cert.KernelIdeal.main_arg2))) (Cert.ReferenceIdeal.Read.val_main_v23 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
    (Cert.ReferenceIdeal.Read.val_main_v31 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) (m ((c.tc : Thread Cert.KernelIdeal.nD Cert.KernelIdeal.τ).loc Cert.KernelIdeal.main_arg4)) := by
  obtain ⟨hx, hp⟩ := Cert.QuasiPoly.Pre.decode _ _ _ _ _ (hpre c)
  rw [Cert.QuasiPoly.Ker.final]
  funext i
  obtain ⟨b, o, rfl⟩ : ∃ (b o : Fin 512), i = ix2 b o := ⟨i 0, i 1, eq_ix2 i⟩
  rw [Cert.QuasiPoly.layerArr_apply]
  show Cert.QuasiPoly.fused _ _ _ _ _ _ _ b o = _
  rw [Cert.KernelIdeal.Gen.V_main_arg0 m c, Cert.KernelIdeal.Gen.V_main_arg1 m c, Cert.QuasiPoly.Ker.V_w0 m c]
  exact Cert.QuasiPoly.fused_eq_layer _ _ _ _ _ _ _ _ _ _ hx hp (Cert.QuasiPoly.Ker.V_log m c)
    (Cert.QuasiPoly.Ker.V_a1 m c) (Cert.QuasiPoly.Ker.V_a2 m c) (Cert.QuasiPoly.Ker.V_bias m c) b o

/-- From memories that agree on the arguments both programs end with the layer of the arguments in their result. -/
theorem algebraic : Cert.algebraic_KernelIdeal_ReferenceIdeal := by
  intro m ρ m' ρ' hpre hagree
  refine ⟨fun c => Cert.QuasiPoly.layerArr (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (Cert.ReferenceIdeal.Read.val_main_v13 (F := Ideal) (m ((c.tc : Thread Cert.KernelIdeal.nD Cert.KernelIdeal.τ).loc Cert.KernelIdeal.main_arg2))) (Cert.ReferenceIdeal.Read.val_main_v23 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
    (Cert.ReferenceIdeal.Read.val_main_v31 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) (m ((c.tc : Thread Cert.KernelIdeal.nD Cert.KernelIdeal.τ).loc Cert.KernelIdeal.main_arg4)), ?_, ?_⟩
  · exact (θ_run Cert.KernelIdeal.defs _ _).mono
      (fun r h c => ⟨(h c).1.trans (kernel_value m hpre c), (h c).2⟩) (Cert.KernelIdeal.Value.run_blocks m ρ)
  · refine (θ_run Cert.ReferenceIdeal.defs _ _).mono (fun r h c => ⟨(h c).1.trans ?_, (h c).2⟩)
      (Cert.ReferenceIdeal.Value.run (F := Ideal) m' ρ')
    refine (Cert.ReferenceIdeal.Read.val_main_v41_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg4))).trans ?_
    rw [Cert.QuasiPoly.Ref.reference_eq, (hagree c).1, (hagree c).2.1, (hagree c).2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
